-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x600000 32) (main_arg2 : FVec F S128x256 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S6000x128 : Shape := ⟨2, ![6000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 83
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S50000x128, .bf16⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .bf16⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .bf16⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .bf16⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .bf16⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S128x256, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S6000x128, .f32⟩
  | .local _ .vmem, ⟨13, _⟩ => ⟨S6000x128, .f32⟩
  | .local _ .vmem, ⟨14, _⟩ => ⟨S6000x128, .bf16⟩
  | .local _ .vmem, ⟨15, _⟩ => ⟨S6000x128, .bf16⟩
  | .local _ .vmem, ⟨16, _⟩ => ⟨S6000x128, .bf16⟩
  | .local _ .vmem, ⟨17, _⟩ => ⟨S6000x128, .bf16⟩
  | .local _ .vmem, ⟨18, _⟩ => ⟨S128x256, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S6000x128, .f32⟩
  | .local _ .vmem, ⟨27, _⟩ => ⟨S6000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_v37 : Ref sig .tc := ⟨.hbm, 70, rfl⟩
abbrev main_v38 : Ref sig .tc := ⟨.hbm, 71, rfl⟩
abbrev main_c_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6000x128.size a ≤ S600000x128.size a
  hwx0_10 : ∀ i : grid0.Coords, EltTy.bits .f32 = 32 ∨ (Rect.block (s := S600000x128) S6000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .bf16 = 32 ∨ (Rect.block (s := S600000x128) S6000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .bf16 = 32 ∨ (Rect.block (s := S600000x128) S6000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6000x128.size a ≤ S600000x128.size a
  hwx1_10 : ∀ i : grid1.Coords, EltTy.bits .f32 = 32 ∨ (Rect.block (s := S600000x128) S6000x128.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v11) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S6000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v36) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S6000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S1x128 : Shape := ⟨2, ![1, 128]⟩
abbrev S50000 : Shape := ⟨1, ![50000]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S1x600000, .i32⟩
  | 19 => ⟨S600000, .i32⟩
  | 20 => ⟨S1x600000, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x128, .f32⟩
  | 41 => ⟨S600000x256, .f32⟩
  | 42 => ⟨S256x128, .f32⟩
  | 43 => ⟨S600000x128, .f32⟩
  | 44 => ⟨S1x128, .f32⟩
  | 45 => ⟨S600000x128, .f32⟩
  | 46 => ⟨S600000x128, .f32⟩
  | 47 => ⟨S_, .f32⟩
  | 48 => ⟨S600000x128, .f32⟩
  | 49 => ⟨S600000x128, .f32⟩
  | 50 => ⟨S1x128, .f32⟩
  | 51 => ⟨S600000x128, .f32⟩
  | 52 => ⟨S600000x128, .f32⟩
  | 53 => ⟨S_, .f32⟩
  | 54 => ⟨S128, .f32⟩
  | 55 => ⟨S128, .f32⟩
  | 56 => ⟨S128, .f32⟩
  | 57 => ⟨S128, .f32⟩
  | 58 => ⟨S1x128, .f32⟩
  | 59 => ⟨S600000x128, .f32⟩
  | 60 => ⟨S600000x128, .f32⟩
  | 61 => ⟨S1x128, .f32⟩
  | 62 => ⟨S600000x128, .f32⟩
  | 63 => ⟨S600000x128, .f32⟩
  | 64 => ⟨S128x128, .f32⟩
  | 65 => ⟨S600000x128, .f32⟩
  | 66 => ⟨S1x128, .f32⟩
  | 67 => ⟨S600000x128, .f32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S600000x128, .f32⟩
  | 105 => ⟨S600000x256, .f32⟩
  | 106 => ⟨S256x128, .f32⟩
  | 107 => ⟨S600000x128, .f32⟩
  | 108 => ⟨S1x128, .f32⟩
  | 109 => ⟨S600000x128, .f32⟩
  | 110 => ⟨S600000x128, .f32⟩
  | 111 => ⟨S_, .f32⟩
  | 112 => ⟨S600000x128, .f32⟩
  | 113 => ⟨S600000x128, .f32⟩
  | 114 => ⟨S1x128, .f32⟩
  | 115 => ⟨S600000x128, .f32⟩
  | 116 => ⟨S600000x128, .f32⟩
  | 117 => ⟨S_, .f32⟩
  | 118 => ⟨S128, .f32⟩
  | 119 => ⟨S128, .f32⟩
  | 120 => ⟨S128, .f32⟩
  | 121 => ⟨S128, .f32⟩
  | 122 => ⟨S1x128, .f32⟩
  | 123 => ⟨S600000x128, .f32⟩
  | 124 => ⟨S600000x128, .f32⟩
  | 125 => ⟨S1x128, .f32⟩
  | 126 => ⟨S600000x128, .f32⟩
  | 127 => ⟨S600000x128, .f32⟩
  | _ => ⟨S50000x128, .f32⟩

abbrev hbmTy0_1 (i : Nat) : BufTy := match i % 128 with
  | 0 => ⟨S128x128, .f32⟩
  | 1 => ⟨S600000x128, .f32⟩
  | 2 => ⟨S1x128, .f32⟩
  | 3 => ⟨S600000x128, .f32⟩
  | 4 => ⟨S600000x128, .f32⟩
  | 5 => ⟨S_, .f32⟩
  | 6 => ⟨S50000x128, .f32⟩
  | 7 => ⟨S600000x1, .i32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_5 : Ref sig .tc := ⟨.hbm, 86, rfl⟩
abbrev main_v53 : Ref sig .tc := ⟨.hbm, 87, rfl⟩
abbrev main_v54 : Ref sig .tc := ⟨.hbm, 88, rfl⟩
abbrev main_c_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_7 : Ref sig .tc := ⟨.hbm, 95, rfl⟩
abbrev main_v60 : Ref sig .tc := ⟨.hbm, 96, rfl⟩
abbrev main_v61 : Ref sig .tc := ⟨.hbm, 97, rfl⟩
abbrev main_c_8 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call3_cst : Ref sig .tc := ⟨.hbm, 111, rfl⟩
abbrev main_call3_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_9 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_10 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S128 : S_.BroadcastsInDim S128 (![] : Fin 0 → Fin S128.rank)
  transposes_S128x128_S128x128_1_0 : S128x128.Transposes [1, 0] S128x128
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The kernel program's run with its RESULT named. The program is two kernel regions among stretches of host
  operations; its buffers' contents at each boundary are a fold through the program (the host stretches applied in
  order, each region's arrays replaced by what its write-backs leave). Every weakly fair execution from a memory with
  zero counters terminates, without a fault, with the result buffer at the last boundary's contents and every argument
  array as launched.
-/
import proofs.«133055_j85873576117019_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the fold gives it after the last host stretch (`W8`), the
    arguments as launched. -/
theorem run_result : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.Hand

end
-- ==== Proof.EdgeSpec.lean ====
/-
  The per-edge function of one EdgeConv layer, stated once, index by index, on the extended reals.

  For an edge row `e` with target features `xi e ·` and source features `xj e ·` (128 each), the first linear layer
  contracts the 256 columns of `wa`: columns 0 … 127 against `xi`, columns 128 … 255 against the difference
  `xj - xi`. A bias, the rectifier, the inference-time batch normalisation `(h - rm) · (g · rsqrt (rv + ε)) + be` and a
  second linear layer with bias follow. `edgeMlp` is the value at output column `c`.

  Two facts about it are all the certificate needs: a sum over 256 columns splits into the sums over its two halves
  (`sum_halves`: addition on the extended reals is commutative and associative, no finiteness is used), and the value
  at row `e` reads only row `e` of the two feature arrays (`edgeMlp_congr`), so that a block of rows computes the rows
  of the whole array.
-/
import Idealize.ShloMosaic.PureOps.Ideal
import Idealize.ShloMosaic.PureOps.Ideal.Laws
import Idealize.ShloMosaic.Lib.ValueIdx

noncomputable section

open scoped BigOperators

namespace Cert.EdgeConv

open Idealize.ShloMosaic Idealize.ShloMosaic.ValueIdx

/-- A sum over 256 columns is the sum over columns 0 … 127 plus the sum over columns 128 … 255. -/
theorem sum_halves (f : Fin 256 → EReal) :
    ∑ k : Fin 256, f k = (∑ j : Fin 128, f ⟨j.val, by omega⟩) + ∑ j : Fin 128, f ⟨128 + j.val, by omega⟩ :=
  Fin.sum_univ_add (a := 128) (b := 128) f

variable {E : Nat}

/-- The first linear layer before its bias: `xi` against the first 128 columns of `wa`'s row `k`, `xj - xi` against
    the last 128. -/
def lin1 (xi xj : (⟨2, ![E, 128]⟩ : Shape).Idx → EReal) (wa : (⟨2, ![128, 256]⟩ : Shape).Idx → EReal)
    (e : Fin E) (k : Fin 128) : EReal :=
  (∑ j : Fin 128, xi (ix2 e j) * wa (ix2 k (⟨j.val, by omega⟩ : Fin 256)))
    + ∑ j : Fin 128, (xj (ix2 e j) - xi (ix2 e j)) * wa (ix2 k (⟨128 + j.val, by omega⟩ : Fin 256))

/-- The hidden activation: bias, rectifier, batch normalisation with the running statistics. -/
def hidden (xi xj : (⟨2, ![E, 128]⟩ : Shape).Idx → EReal) (wa : (⟨2, ![128, 256]⟩ : Shape).Idx → EReal)
    (ba g be rm rv : (⟨1, ![128]⟩ : Shape).Idx → EReal) (e : Fin E) (k : Fin 128) : EReal :=
  (max (lin1 xi xj wa e k + ba (ix1 k)) (Ideal.ofBits .f32 0x00000000#32) - rm (ix1 k))
      * (g (ix1 k) * Ideal.rsqrt (rv (ix1 k) + Ideal.ofBits .f32 0x3727C5AC#32))
    + be (ix1 k)

/-- One edge's message at output column `c`: the hidden activation against row `c` of `wb`, plus the bias. -/
def edgeMlp (xi xj : (⟨2, ![E, 128]⟩ : Shape).Idx → EReal) (wa : (⟨2, ![128, 256]⟩ : Shape).Idx → EReal)
    (ba g be rm rv : (⟨1, ![128]⟩ : Shape).Idx → EReal) (wb : (⟨2, ![128, 128]⟩ : Shape).Idx → EReal)
    (bb : (⟨1, ![128]⟩ : Shape).Idx → EReal) (e : Fin E) (c : Fin 128) : EReal :=
  (∑ k : Fin 128, hidden xi xj wa ba g be rm rv e k * wb (ix2 c k)) + bb (ix1 c)

/-- The whole message array: `edgeMlp` at every row and column. -/
def edgeArr (xi xj : (⟨2, ![E, 128]⟩ : Shape).Idx → EReal) (wa : (⟨2, ![128, 256]⟩ : Shape).Idx → EReal)
    (ba g be rm rv : (⟨1, ![128]⟩ : Shape).Idx → EReal) (wb : (⟨2, ![128, 128]⟩ : Shape).Idx → EReal)
    (bb : (⟨1, ![128]⟩ : Shape).Idx → EReal) : (⟨2, ![E, 128]⟩ : Shape).Idx → EReal :=
  fun i => edgeMlp xi xj wa ba g be rm rv wb bb (i 0) (i 1)

/-- Row `e` of the message reads row `e` of the features only: two pairs of feature arrays, of any heights, that agree
    on one row each give the same message there. -/
theorem edgeMlp_congr {E' : Nat} (xi xj : (⟨2, ![E, 128]⟩ : Shape).Idx → EReal) (xi' xj' : (⟨2, ![E', 128]⟩ : Shape).Idx → EReal)
    (wa : (⟨2, ![128, 256]⟩ : Shape).Idx → EReal) (ba g be rm rv : (⟨1, ![128]⟩ : Shape).Idx → EReal)
    (wb : (⟨2, ![128, 128]⟩ : Shape).Idx → EReal) (bb : (⟨1, ![128]⟩ : Shape).Idx → EReal) (e : Fin E) (e' : Fin E')
    (hi : ∀ j : Fin 128, xi (ix2 e j) = xi' (ix2 e' j)) (hj : ∀ j : Fin 128, xj (ix2 e j) = xj' (ix2 e' j)) (c : Fin 128) :
    edgeMlp xi xj wa ba g be rm rv wb bb e c = edgeMlp xi' xj' wa ba g be rm rv wb bb e' c := by
  unfold edgeMlp hidden lin1
  simp only [hi, hj]

end Cert.EdgeConv

end
-- ==== Proof.Net.lean ====
/-
  The host side of the network, named once: the operations that both programs apply around the per-edge function, in
  the kernel program's own vocabulary of shapes and shape facts.

  `srcOf` / `dstOf` are the two rows of the edge list; `startIdx` wraps a negative node index by the node count and
  lays the indices out as a column of start indices; `rowsAt x ix` gathers the rows of `x` those indices name;
  `segSum dst u` adds every edge's message `u e ·` into the row of its target node `dst e`, from zero; `unitRows h`
  rectifies `h` and divides every row by its Euclidean norm, the norm bounded below by a small constant.

  At the ideal values one layer is `segSum` of the per-edge function (EdgeSpec) of the rows gathered at the target and
  source ends, and the network is a layer, `unitRows`, and a second layer.
-/
import proofs.«133055_j85873576117019_2_alg».proof.KernelIdeal
import proofs.«133055_j85873576117019_2_alg».proof.Proof.EdgeSpec

noncomputable section

namespace Cert.KernelIdeal.Net

open Idealize.ShloMosaic Cert.KernelIdeal Cert.KernelIdeal.Facts₀

variable {F : FTy → Type} [FloatOps F] [Cert.KernelIdeal.Facts]

/-- Row 0 of the edge list: each edge's source node. -/
def srcOf (ei : Vec F S2x600000 .i32) : Vec F S600000 .i32 :=
  shapeCast _ (extractStridedSlice S1x600000 ![0, 0] ei slices_S2x600000_S1x600000_0_0) shapeCasts_S1x600000_S600000

/-- Row 1 of the edge list: each edge's target node. -/
def dstOf (ei : Vec F S2x600000 .i32) : Vec F S600000 .i32 :=
  shapeCast _ (extractStridedSlice S1x600000 ![1, 0] ei slices_S2x600000_S1x600000_1_0) shapeCasts_S1x600000_S600000

/-- Node indices as a column of gather start indices, a negative index moved up by the node count. -/
def startIdx (ix : Vec F S600000 .i32) : Vec F S600000x1 .i32 :=
  broadcastInDim S600000x1 ![0] bcast_S600000_S600000x1_0
    (select (cmpi .slt ix (broadcastInDim S600000 ![] bcast_S_S600000 (constantI S_ 32 0#32)))
      (addi ix (broadcastInDim S600000 ![] bcast_S_S600000 (constantI S_ 32 50000#32))) ix)

/-- The rows of `x` at the given node indices, one per edge. -/
def rowsAt {e : EltTy} (x : Vec F S50000x128 e) (ix : Vec F S600000 .i32) : Vec F S600000x128 e :=
  Host.gather gather_S50000x128_S600000x1_S600000x128_1_0_n_n_0_1_1128 x (startIdx ix)

/-- Every edge's message added into its target node's row, starting from zero. -/
def segSum (dst : Vec F S600000 .i32) (u : Vec F S600000x128 .f32) : Vec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) u

/-- The rectifier on node features. -/
def relu (h : Vec F S50000x128 .f32) : Vec F S50000x128 .f32 :=
  maximumf h (broadcastInDim S50000x128 ![] bcast_S_S50000x128 (constant S_ .f32 0x00000000#32))

/-- Each row's Euclidean norm, as a column. -/
def rowNorm (r : Vec F S50000x128 .f32) : Vec F S50000x1 .f32 :=
  Host.sqrt (broadcastInDim S50000x1 ![0] bcast_S50000_S50000x1_0
    (Host.reduceAdd (mulf r r) (constant S_ .f32 0x00000000#32) reducesTo_S50000x128_S50000_d1 h_S_))

/-- Every row of `r` divided by the column `n` bounded below by a small constant. -/
def scaleRows (r : Vec F S50000x128 .f32) (n : Vec F S50000x1 .f32) : Vec F S50000x128 .f32 :=
  Host.divf r (broadcastInDim S50000x128 ![0, 1] bcast_S50000x1_S50000x128_0_1
    (maximumf n (broadcastInDim S50000x1 ![] bcast_S_S50000x1 (constant S_ .f32 0x2B8CBCCC#32))))

/-- Rectified features with every row divided by its norm, the norm bounded below. -/
def unitRows (h : Vec F S50000x128 .f32) : Vec F S50000x128 .f32 :=
  scaleRows (relu h) (rowNorm (relu h))

/-- One EdgeConv layer at the ideal values: rows gathered at the target and the source end of every edge, the per-edge
    function, the sum per target node. -/
def layer (x : Vec Ideal S50000x128 .f32) (src dst : Vec Ideal S600000 .i32) (wa : Vec Ideal S128x256 .f32)
    (ba g be rm rv : Vec Ideal S128 .f32) (wb : Vec Ideal S128x128 .f32) (bb : Vec Ideal S128 .f32) : Vec Ideal S50000x128 .f32 :=
  segSum dst (Cert.EdgeConv.edgeArr (E := 600000) (rowsAt x dst) (rowsAt x src) wa ba g be rm rv wb bb)

/-- The network: a layer, the row normalisation, a second layer with its own parameters. -/
def net (x : Vec Ideal S50000x128 .f32) (ei : Vec Ideal S2x600000 .i32)
    (wa1 : Vec Ideal S128x256 .f32) (ba1 g1 be1 rm1 rv1 : Vec Ideal S128 .f32) (wb1 : Vec Ideal S128x128 .f32) (bb1 : Vec Ideal S128 .f32)
    (wa2 : Vec Ideal S128x256 .f32) (ba2 g2 be2 rm2 rv2 : Vec Ideal S128 .f32) (wb2 : Vec Ideal S128x128 .f32) (bb2 : Vec Ideal S128 .f32) :
    Vec Ideal S50000x128 .f32 :=
  layer (unitRows (layer x (srcOf ei) (dstOf ei) wa1 ba1 g1 be1 rm1 rv1 wb1 bb1)) (srcOf ei) (dstOf ei) wa2 ba2 g2 be2 rm2 rv2 wb2 bb2

end Cert.KernelIdeal.Net

end
-- ==== Proof.KernelBody.lean ====
/-
  What one grid point of the kernel stores, index by index, at the ideal values: the block it writes back is the
  per-edge function (EdgeSpec) of the blocks it loaded.

  The body loads a block of target rows `xi`, a block of source rows `xj`, and the layer's parameters whole. It
  multiplies `xi` by the transposed first half of `wa`'s columns and `xj - xi` by the transposed second half, each
  into a zero accumulator, so each product at (r, k) is a plain sum over 128 columns; adds the bias; rectifies;
  normalises; and multiplies by the transposed `wb` into a zero accumulator, plus the bias. Changes of float format
  are the identity at the ideal values. Read at row `r` and column `c` this is `edgeMlp … r c`.
-/
import proofs.«133055_j85873576117019_2_alg».proof.Proof.Gen.KernelIdeal.Frame
import proofs.«133055_j85873576117019_2_alg».proof.Proof.EdgeSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx
open Cert.KernelIdeal Cert.KernelIdeal.Gen Cert.EdgeConv

/-- The kernel's one dot record: [6000,128] × [128,128], contracting the left's columns with the right's rows. -/
abbrev D := dot_S6000x128_S128x128_S6000x128_1_0_0_1_n_n

theorem hz2 : (![0, 0] : Fin 2 → Nat) = fun _ => 0 := funext fun a => by fin_cases a <;> rfl
theorem hz1 : (![0] : Fin 1 → Nat) = fun _ => 0 := funext fun a => by fin_cases a <;> rfl

/-! ## The matrix product into a zero accumulator, at an index -/

theorem lhs_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- A product of a [6000,128] block with a [128,128] matrix into the zero splat is, at (r, c), the sum over the 128
    contracted positions of the left's row `r` against the right's column `c`. -/
theorem matmul_zero_apply {φ₁ φ₂ : FTy} (lhs : FVec Ideal S6000x128 φ₁) (rhs : FVec Ideal S128x128 φ₂) (r : Fin 6000) (c : Fin 128) :
    matmul dot_S6000x128_S128x128_S6000x128_1_0_0_1_n_n none lhs rhs (constant S6000x128 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 r c) ((ValueIdx.contrEquiv1 dot_S6000x128_S128x128_S6000x128_1_0_0_1_n_n 128 rfl rfl).symm k) = ix2 r k := funext fun a => Fin.ext (by
    match a with
    | ⟨0, _⟩ => exact lhs_0 _ _
    | ⟨1, _⟩ => exact (lhs_1 _ _).trans hk)
  have er : dot_S6000x128_S128x128_S6000x128_1_0_0_1_n_n.rhsIdx (ix2 r c) ((ValueIdx.contrEquiv1 dot_S6000x128_S128x128_S6000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-! ## The layout operations of the body, at an index -/

/-- A [128] vector cast to one row and broadcast over 6000 rows reads, at (r, c), the vector at `c`. -/
theorem rowvec_apply (v : FVec Ideal S128 .f32) (r : Fin 6000) (c : Fin 128) :
    broadcastTo S6000x128 (shapeCast S1x128 v shapeCasts_S128_S1x128) broadcasts_S1x128_S6000x128 (ix2 r c) = v (ix1 c) :=
  (broadcastTo_1b_ab_apply _ broadcasts_S1x128_S6000x128 r c).trans (shapeCast_a_1a_apply v shapeCasts_S128_S1x128 0 c)

/-- The transposed first half of the columns of a [128,256] matrix: at (j, k) it is the matrix at (k, j). -/
theorem halfT_lo_apply (w : FVec Ideal S128x256 .f32) (j k : Fin 128) :
    transpose S128x128 [1, 0] (extractStridedSlice S128x128 ![0, 0] (truncf .bf16 w bitsLt_bf16_f32) slices_S128x256_o0_0_S128x128) transposes_S128x128_p1_0_S128x128 (ix2 j k)
      = w (ix2 k (⟨j.val, by omega⟩ : Fin 256)) := by
  refine (transpose_apply [1, 0] _ transposes_S128x128_p1_0_S128x128 (ix2 j k) (ix2 k j) (fun b => match b with
    | ⟨0, _⟩ => rfl
    | ⟨1, _⟩ => rfl)).trans ?_
  exact extractStridedSlice_apply ![0, 0] (truncf .bf16 w bitsLt_bf16_f32) slices_S128x256_o0_0_S128x128 (ix2 k j) (ix2 k (⟨j.val, by omega⟩ : Fin 256)) (fun a => match a with
    | ⟨0, _⟩ => by show k.val = 0 + k.val; omega
    | ⟨1, _⟩ => by show j.val = 0 + j.val; omega)

/-- The transposed second half of the columns: at (j, k) it is the matrix at (k, 128 + j). -/
theorem halfT_hi_apply (w : FVec Ideal S128x256 .f32) (j k : Fin 128) :
    transpose S128x128 [1, 0] (extractStridedSlice S128x128 ![0, 128] (truncf .bf16 w bitsLt_bf16_f32) slices_S128x256_o0_128_S128x128) transposes_S128x128_p1_0_S128x128 (ix2 j k)
      = w (ix2 k (⟨128 + j.val, by omega⟩ : Fin 256)) := by
  refine (transpose_apply [1, 0] _ transposes_S128x128_p1_0_S128x128 (ix2 j k) (ix2 k j) (fun b => match b with
    | ⟨0, _⟩ => rfl
    | ⟨1, _⟩ => rfl)).trans ?_
  exact extractStridedSlice_apply ![0, 128] (truncf .bf16 w bitsLt_bf16_f32) slices_S128x256_o0_128_S128x128 (ix2 k j) (ix2 k (⟨128 + j.val, by omega⟩ : Fin 256)) (fun a => match a with
    | ⟨0, _⟩ => by show k.val = 0 + k.val; omega
    | ⟨1, _⟩ => by show 128 + j.val = 128 + j.val; rfl)

/-- A transposed [128,128] matrix (its format changed first): at (k, c) it is the matrix at (c, k). -/
theorem fullT_apply (w : FVec Ideal S128x128 .f32) (k c : Fin 128) :
    transpose S128x128 [1, 0] (truncf .bf16 w bitsLt_bf16_f32) transposes_S128x128_p1_0_S128x128 (ix2 k c) = w (ix2 c k) :=
  transpose_apply [1, 0] _ transposes_S128x128_p1_0_S128x128 (ix2 k c) (ix2 c k) (fun b => match b with
    | ⟨0, _⟩ => rfl
    | ⟨1, _⟩ => rfl)

/-- The reciprocal square root of a vector, at an index. -/
theorem rsqrt_apply {s : Shape} {φ : FTy} (a : FVec Ideal s φ) (i : s.Idx) : rsqrt a i = Ideal.rsqrt (a i) := rfl

/-! ## The body's three payloads, at an index -/

/-- The hidden activation the body keeps for its second product. -/
theorem pay2_apply (v0 v2 : FVec Ideal S6000x128 .bf16) (v5 : FVec Ideal S128x256 .f32) (v14 v20 v21 v26 v33 : FVec Ideal S128 .f32)
    (r : Fin 6000) (k : Fin 128) :
    k0_pay2 (F := Ideal) v0 v2 v5 v14 v20 v21 v26 v33 (ix2 r k) = hidden v0 v2 v5 v14 v20 v33 v26 v21 r k := by
  have hlo : ∀ j : Fin 128, transpose S128x128 [1, 0] (extractStridedSlice S128x128 ![0, 0] (truncf .bf16 v5 bitsLt_bf16_f32) slices_S128x256_o0_0_S128x128) transposes_S128x128_p1_0_S128x128 (ix2 j k)
      = v5 (ix2 k (⟨j.val, by omega⟩ : Fin 256)) := fun j => halfT_lo_apply v5 j k
  have hhi : ∀ j : Fin 128, transpose S128x128 [1, 0] (extractStridedSlice S128x128 ![0, 128] (truncf .bf16 v5 bitsLt_bf16_f32) slices_S128x256_o0_128_S128x128) transposes_S128x128_p1_0_S128x128 (ix2 j k)
      = v5 (ix2 k (⟨128 + j.val, by omega⟩ : Fin 256)) := fun j => halfT_hi_apply v5 j k
  unfold k0_pay2
  simp only [truncf_apply, addf_apply, subf_apply, mulf_apply, maximumf_apply, broadcast_apply, shapeCast_self, rowvec_apply,
    matmul_zero_apply, rsqrt_apply, hlo, hhi]
  rfl

/-- The second weight matrix as the body passes it to its product. -/
theorem pay3_apply (v38 : FVec Ideal S128x128 .f32) (k c : Fin 128) : k0_pay3 (F := Ideal) v38 (ix2 k c) = v38 (ix2 c k) := by
  unfold k0_pay3
  exact fullT_apply v38 k c

/-- What the body stores: the second product into zero, plus the bias. -/
theorem pay1_apply (v37 : FVec Ideal S6000x128 .bf16) (v40 : FVec Ideal S128x128 .bf16) (v42 : FVec Ideal S128 .f32) (r : Fin 6000) (c : Fin 128) :
    k0_pay1 (F := Ideal) v37 v40 (constant S6000x128 .f32 0x00000000#32) v42 (ix2 r c)
      = (∑ k : Fin 128, v37 (ix2 r k) * v40 (ix2 k c)) + v42 (ix1 c) := by
  unfold k0_pay1
  simp only [addf_apply, rowvec_apply, matmul_zero_apply]

/-! ## The block a point writes back -/

/-- Region 0: the output window's staging buffer after the body, at row `r` and column `c`, is the per-edge function
    of the loaded blocks. -/
theorem out0_apply (x0 x1 : Vec Ideal S6000x128 .bf16) (x2 : Vec Ideal S128x256 .f32) (x3 x4 x5 x6 x7 : Vec Ideal S128 .f32)
    (x8 : Vec Ideal S128x128 .f32) (x9 : Vec Ideal S128 .f32) (r : Fin 6000) (c : Fin 128) :
    out0_10 (F := Ideal) x0 x1 x2 x3 x4 x5 x6 x7 x8 x9 (ix2 r c) = edgeMlp x0 x1 x2 x3 x4 x5 x6 x7 x8 x9 r c := by
  unfold out0_10
  rw [View.canon_unit_zero hz2]
  simp only [View.ld_unit_zero (S := S6000x128) hz2, View.ld_unit_zero (S := S128x256) hz2, View.ld_unit_zero (S := S128) hz1,
    View.ld_unit_zero (S := S128x128) hz2]
  rw [pay1_apply]
  unfold edgeMlp
  refine congrArg (· + x9 (ix1 c)) (Finset.sum_congr rfl fun k _ => ?_)
  rw [pay2_apply, pay3_apply]

/-- Region 1 runs the same body. -/
theorem out1_eq_out0 (x0 x1 : Vec Ideal S6000x128 .bf16) (x2 : Vec Ideal S128x256 .f32) (x3 x4 x5 x6 x7 : Vec Ideal S128 .f32)
    (x8 : Vec Ideal S128x128 .f32) (x9 : Vec Ideal S128 .f32) :
    out1_10 (F := Ideal) x0 x1 x2 x3 x4 x5 x6 x7 x8 x9 = out0_10 (F := Ideal) x0 x1 x2 x3 x4 x5 x6 x7 x8 x9 := rfl

theorem out1_apply (x0 x1 : Vec Ideal S6000x128 .bf16) (x2 : Vec Ideal S128x256 .f32) (x3 x4 x5 x6 x7 : Vec Ideal S128 .f32)
    (x8 : Vec Ideal S128x128 .f32) (x9 : Vec Ideal S128 .f32) (r : Fin 6000) (c : Fin 128) :
    out1_10 (F := Ideal) x0 x1 x2 x3 x4 x5 x6 x7 x8 x9 (ix2 r c) = edgeMlp x0 x1 x2 x3 x4 x5 x6 x7 x8 x9 r c := by
  rw [out1_eq_out0]; exact out0_apply x0 x1 x2 x3 x4 x5 x6 x7 x8 x9 r c

end Cert.KernelIdeal.Body

end
-- ==== Proof.KernelBlocks.lean ====
/-
  From blocks to arrays: after each kernel region its output array holds the per-edge function (EdgeSpec) of the arrays
  the region was entered with.

  Each region runs 100 grid points. Point `t` loads rows `6000 t … 6000 t + 5999` of the target-row and source-row
  arrays, loads every parameter array whole, and writes back rows `6000 t … 6000 t + 5999` of the output. The per-edge
  function of a row reads only that row of the two feature arrays, so what point `t` writes back is block `t` of the
  whole message array; the 100 blocks tile the 600000 rows, so the output array ends at the message array.
  Stated at any contents `V` the region is entered with.
-/
import proofs.«133055_j85873576117019_2_alg».proof.Proof.Gen.KernelIdeal.Frame
import proofs.«133055_j85873576117019_2_alg».proof.Proof.KernelBody
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.EdgeConv Cert.KernelIdeal.Body

variable (V : (c : Dev nD) → (b : Ref sig .tc) → Buf (Elt Ideal) ((c : Thread nD τ).loc b))

/-! # Region 0 -/

/-- The printed index maps of region 0, decided over its 100 grid points: the two row windows and the output window
    sit at block `t` of the rows, every parameter window at its one block. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0 :=
  (by decide +kernel : ∀ t : Fin grid0.N, _)

/-- Row `r` of window 0's block at point `t` is row `6000 t + r` of its array. -/
theorem rows0_0 (c : Dev nD) (t : Fin cfg0.N) (r : Fin 6000) (j : Fin 128) (e : Fin 600000) (he : e.val = 6000 * t.val + r.val) :
    (iblk0 V c 0 t : Vec Ideal S6000x128 .bf16) (ix2 r j) = (V c main_v11 : Vec Ideal S600000x128 .bf16) (ix2 e j) := by
  obtain ⟨i0_0, i0_1, i1_0, i1_1, i2_0, i2_1, i3_0, i4_0, i5_0, i6_0, i7_0, i8_0, i8_1, i9_0, i10_0, i10_1⟩ := idx0 t
  show V c main_v11 (((cfg0.win 0).blk t).view.emb (ix2 r j)) = V c main_v11 (ix2 e j)
  refine congrArg (V c main_v11) (funext fun a => Fin.ext ?_)
  match a with
  | ⟨0, _⟩ => show win0_0.index t (0 : Fin 2) * 6000 + 1 * r.val = e.val; rw [i0_0, he]; omega
  | ⟨1, _⟩ => show win0_0.index t (1 : Fin 2) * 128 + 1 * j.val = j.val; rw [i0_1]; omega

/-- Row `r` of window 1's block at point `t` is row `6000 t + r` of its array. -/
theorem rows0_1 (c : Dev nD) (t : Fin cfg0.N) (r : Fin 6000) (j : Fin 128) (e : Fin 600000) (he : e.val = 6000 * t.val + r.val) :
    (iblk0 V c 1 t : Vec Ideal S6000x128 .bf16) (ix2 r j) = (V c main_v18 : Vec Ideal S600000x128 .bf16) (ix2 e j) := by
  obtain ⟨i0_0, i0_1, i1_0, i1_1, i2_0, i2_1, i3_0, i4_0, i5_0, i6_0, i7_0, i8_0, i8_1, i9_0, i10_0, i10_1⟩ := idx0 t
  show V c main_v18 (((cfg0.win 1).blk t).view.emb (ix2 r j)) = V c main_v18 (ix2 e j)
  refine congrArg (V c main_v18) (funext fun a => Fin.ext ?_)
  match a with
  | ⟨0, _⟩ => show win0_1.index t (0 : Fin 2) * 6000 + 1 * r.val = e.val; rw [i1_0, he]; omega
  | ⟨1, _⟩ => show win0_1.index t (1 : Fin 2) * 128 + 1 * j.val = j.val; rw [i1_1]; omega

/-- Window 2's one block is its whole array. -/
theorem whole0_2 (c : Dev nD) (t : Fin cfg0.N) :
    (iblk0 V c 2 t : Vec Ideal S128x256 .f32) = (V c main_arg2 : Vec Ideal S128x256 .f32) := by
  obtain ⟨i0_0, i0_1, i1_0, i1_1, i2_0, i2_1, i3_0, i4_0, i5_0, i6_0, i7_0, i8_0, i8_1, i9_0, i10_0, i10_1⟩ := idx0 t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; rw [i2_0]; omega
  | ⟨1, _⟩ => show win0_2.index t (1 : Fin 2) * 256 + 1 * (y 1).val = (y 1).val; rw [i2_1]; omega

/-- Window 3's one block is its whole array. -/
theorem whole0_3 (c : Dev nD) (t : Fin cfg0.N) :
    (iblk0 V c 3 t : Vec Ideal S128 .f32) = (V c main_arg3 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; rw [i3_0]; omega

/-- Window 4's one block is its whole array. -/
theorem whole0_4 (c : Dev nD) (t : Fin cfg0.N) :
    (iblk0 V c 4 t : Vec Ideal S128 .f32) = (V c main_arg4 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg4 (((cfg0.win 4).blk t).view.emb y) = V c main_arg4 y
  refine congrArg (V c main_arg4) (funext fun a => Fin.ext ?_)
  match a with
  | ⟨0, _⟩ => show win0_4.index t (0 : Fin 1) * 128 + 1 * (y 0).val = (y 0).val; rw [i4_0]; omega

/-- Window 5's one block is its whole array. -/
theorem whole0_5 (c : Dev nD) (t : Fin cfg0.N) :
    (iblk0 V c 5 t : Vec Ideal S128 .f32) = (V c main_arg5 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg5 (((cfg0.win 5).blk t).view.emb y) = V c main_arg5 y
  refine congrArg (V c main_arg5) (funext fun a => Fin.ext ?_)
  match a with
  | ⟨0, _⟩ => show win0_5.index t (0 : Fin 1) * 128 + 1 * (y 0).val = (y 0).val; rw [i5_0]; omega

/-- Window 6's one block is its whole array. -/
theorem whole0_6 (c : Dev nD) (t : Fin cfg0.N) :
    (iblk0 V c 6 t : Vec Ideal S128 .f32) = (V c main_arg6 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg6 (((cfg0.win 6).blk t).view.emb y) = V c main_arg6 y
  refine congrArg (V c main_arg6) (funext fun a => Fin.ext ?_)
  match a with
  | ⟨0, _⟩ => show win0_6.index t (0 : Fin 1) * 128 + 1 * (y 0).val = (y 0).val; rw [i6_0]; omega

/-- Window 7's one block is its whole array. -/
theorem whole0_7 (c : Dev nD) (t : Fin cfg0.N) :
    (iblk0 V c 7 t : Vec Ideal S128 .f32) = (V c main_arg7 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg7 (((cfg0.win 7).blk t).view.emb y) = V c main_arg7 y
  refine congrArg (V c main_arg7) (funext fun a => Fin.ext ?_)
  match a with
  | ⟨0, _⟩ => show win0_7.index t (0 : Fin 1) * 128 + 1 * (y 0).val = (y 0).val; rw [i7_0]; omega

/-- Window 8's one block is its whole array. -/
theorem whole0_8 (c : Dev nD) (t : Fin cfg0.N) :
    (iblk0 V c 8 t : Vec Ideal S128x128 .f32) = (V c main_arg8 : Vec Ideal S128x128 .f32) := by
  obtain ⟨i0_0, i0_1, i1_0, i1_1, i2_0, i2_1, i3_0, i4_0, i5_0, i6_0, i7_0, i8_0, i8_1, i9_0, i10_0, i10_1⟩ := idx0 t
  funext y
  show V c main_arg8 (((cfg0.win 8).blk t).view.emb y) = V c main_arg8 y
  refine congrArg (V c main_arg8) (funext fun a => Fin.ext ?_)
  match a with
  | ⟨0, _⟩ => show win0_8.index t (0 : Fin 2) * 128 + 1 * (y 0).val = (y 0).val; rw [i8_0]; omega
  | ⟨1, _⟩ => show win0_8.index t (1 : Fin 2) * 128 + 1 * (y 1).val = (y 1).val; rw [i8_1]; omega

/-- Window 9's one block is its whole array. -/
theorem whole0_9 (c : Dev nD) (t : Fin cfg0.N) :
    (iblk0 V c 9 t : Vec Ideal S128 .f32) = (V c main_arg9 : Vec Ideal S128 .f32) := by
  obtain ⟨i0_0, i0_1, i1_0, i1_1, i2_0, i2_1, i3_0, i4_0, i5_0, i6_0, i7_0, i8_0, i8_1, i9_0, i10_0, i10_1⟩ := idx0 t
  funext y
  show V c main_arg9 (((cfg0.win 9).blk t).view.emb y) = V c main_arg9 y
  refine congrArg (V c main_arg9) (funext fun a => Fin.ext ?_)
  match a with
  | ⟨0, _⟩ => show win0_9.index t (0 : Fin 1) * 128 + 1 * (y 0).val = (y 0).val; rw [i9_0]; omega

/-- The message array of region 0: the per-edge function of the arrays the region finds. -/
abbrev msg0 (c : Dev nD) : Vec Ideal S600000x128 .f32 :=
  edgeArr (E := 600000) (V c main_v11) (V c main_v18) (V c main_arg2) (V c main_arg3) (V c main_arg4) (V c main_arg5) (V c main_arg6) (V c main_arg7) (V c main_arg8) (V c main_arg9)

/-- WHAT POINT `t` WRITES BACK is block `t` of the message array: row `r` of the stored block is the per-edge function
    of row `r` of the two loaded row blocks, which are rows `6000 t + r` of the arrays, and of the parameters whole. -/
theorem flushed0 (c : Dev nD) (t : Fin cfg0.N) :
    (dat0 V c).flushed 10 t = ((cfg0.win 10).blk t).view.read (Elt Ideal) (msg0 V c) := by
  show (cfg0.win 10).cut (grid0.coords t) ((dat0 V c).after 10 t) = _
  rw [after0_10]
  obtain ⟨i0_0, i0_1, i1_0, i1_1, i2_0, i2_1, i3_0, i4_0, i5_0, i6_0, i7_0, i8_0, i8_1, i9_0, i10_0, i10_1⟩ := idx0 t
  have ht : t.val < 100 := lt_of_lt_of_eq t.isLt (N_0 : cfg0.N = 100)
  funext y
  obtain ⟨r, q, rfl⟩ : ∃ (r : Fin 6000) (q : Fin 128), y = ix2 r q := ⟨y 0, y 1, eq_ix2 y⟩
  have hr : r.val < 6000 := r.isLt
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 r q)
    = msg0 V c (((cfg0.win 10).blk t).view.emb (ix2 r q))
  have hemb : ((cfg0.win 10).blk t).view.emb (ix2 r q) = ix2 (⟨6000 * t.val + r.val, by omega⟩ : Fin 600000) q :=
    funext fun a => Fin.ext (by
      match a with
      | ⟨0, _⟩ => show win0_10.index t (0 : Fin 2) * 6000 + 1 * r.val = 6000 * t.val + r.val; rw [i10_0]; omega
      | ⟨1, _⟩ => show win0_10.index t (1 : Fin 2) * 128 + 1 * q.val = q.val; rw [i10_1]; omega)
  rw [hemb, out0_apply, whole0_2 V c t, whole0_3 V c t, whole0_4 V c t, whole0_5 V c t, whole0_6 V c t, whole0_7 V c t,
    whole0_8 V c t, whole0_9 V c t]
  exact edgeMlp_congr (iblk0 V c 0 t) (iblk0 V c 1 t) (V c main_v11) (V c main_v18) (V c main_arg2) (V c main_arg3) (V c main_arg4)
    (V c main_arg5) (V c main_arg6) (V c main_arg7) (V c main_arg8) (V c main_arg9) r (⟨6000 * t.val + r.val, by omega⟩ : Fin 600000)
    (fun j => rows0_0 V c t r j _ rfl) (fun j => rows0_1 V c t r j _ rfl) q

/-- An index of the output array is in point `t`'s block iff each coordinate is in the block's range on its axis. -/
theorem mem_blk0 (t : Fin cfg0.N) (i : S600000x128.Idx) :
    i ∈ ((cfg0.win 10).blk t).view.set ↔ ∀ a : Fin 2, win0_10.index t a * S6000x128.size a ≤ (i a).val ∧ (i a).val < win0_10.index t a * S6000x128.size a + S6000x128.size a := by
  show i ∈ ((View.whole main_v19).slice (win0_10.rect t)).set ↔ _
  rw [View.set_slice_whole, Rect.mem_set_unit]
  exact Iff.rfl

/-- The 100 blocks of 6000 rows tile the 600000 rows: row `R` is in the block of point `R / 6000`. -/
theorem cover0 (i : S600000x128.Idx) : ∃ t : Fin cfg0.N, (cfg0.win 10).flush t = true ∧ i ∈ ((cfg0.win 10).blk t).view.set := by
  have hi0 : (i 0).val < 600000 := (i 0).isLt
  have hi1 : (i 1).val < 128 := (i 1).isLt
  have hN : cfg0.N = 100 := N_0
  refine ⟨⟨(i 0).val / 6000, by rw [hN]; omega⟩, flush0_10 _, ?_⟩
  rw [mem_blk0]
  obtain ⟨i0_0, i0_1, i1_0, i1_1, i2_0, i2_1, i3_0, i4_0, i5_0, i6_0, i7_0, i8_0, i8_1, i9_0, i10_0, i10_1⟩ := idx0 ⟨(i 0).val / 6000, by rw [hN]; omega⟩
  intro a
  match a with
  | ⟨0, _⟩ => show win0_10.index _ (0 : Fin 2) * 6000 ≤ (i 0).val ∧ (i 0).val < win0_10.index _ (0 : Fin 2) * 6000 + 6000; rw [i10_0]; show (i 0).val / 6000 * 6000 ≤ (i 0).val ∧ (i 0).val < (i 0).val / 6000 * 6000 + 6000; omega
  | ⟨1, _⟩ => show win0_10.index _ (1 : Fin 2) * 128 ≤ (i 1).val ∧ (i 1).val < win0_10.index _ (1 : Fin 2) * 128 + 128; rw [i10_1]; omega

/-- THE OUTPUT ARRAY after region 0: the message array of the arrays the region finds. -/
theorem final0 (c : Dev nD) : (dat0 V c).arrAt 10 cfg0.N = msg0 V c :=
  (dat0 V c).arrAt_eq_of_cover 10 (msg0 V c) (fun t _ => flushed0 V c t) cover0

/-! # Region 1 -/

/-- The printed index maps of region 1, decided over its 100 grid points: the two row windows and the output window
    sit at block `t` of the rows, every parameter window at its one block. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = t.val
    ∧ win1_10.index t (1 : Fin 2) = 0 :=
  (by decide +kernel : ∀ t : Fin grid1.N, _)

/-- Row `r` of window 0's block at point `t` is row `6000 t + r` of its array. -/
theorem rows1_0 (c : Dev nD) (t : Fin cfg1.N) (r : Fin 6000) (j : Fin 128) (e : Fin 600000) (he : e.val = 6000 * t.val + r.val) :
    (iblk1 V c 0 t : Vec Ideal S6000x128 .bf16) (ix2 r j) = (V c main_v36 : Vec Ideal S600000x128 .bf16) (ix2 e j) := by
  obtain ⟨i0_0, i0_1, i1_0, i1_1, i2_0, i2_1, i3_0, i4_0, i5_0, i6_0, i7_0, i8_0, i8_1, i9_0, i10_0, i10_1⟩ := idx1 t
  show V c main_v36 (((cfg1.win 0).blk t).view.emb (ix2 r j)) = V c main_v36 (ix2 e j)
  refine congrArg (V c main_v36) (funext fun a => Fin.ext ?_)
  match a with
  | ⟨0, _⟩ => show win1_0.index t (0 : Fin 2) * 6000 + 1 * r.val = e.val; rw [i0_0, he]; omega
  | ⟨1, _⟩ => show win1_0.index t (1 : Fin 2) * 128 + 1 * j.val = j.val; rw [i0_1]; omega

/-- Row `r` of window 1's block at point `t` is row `6000 t + r` of its array. -/
theorem rows1_1 (c : Dev nD) (t : Fin cfg1.N) (r : Fin 6000) (j : Fin 128) (e : Fin 600000) (he : e.val = 6000 * t.val + r.val) :
    (iblk1 V c 1 t : Vec Ideal S6000x128 .bf16) (ix2 r j) = (V c main_v43 : Vec Ideal S600000x128 .bf16) (ix2 e j) := by
  obtain ⟨i0_0, i0_1, i1_0, i1_1, i2_0, i2_1, i3_0, i4_0, i5_0, i6_0, i7_0, i8_0, i8_1, i9_0, i10_0, i10_1⟩ := idx1 t
  show V c main_v43 (((cfg1.win 1).blk t).view.emb (ix2 r j)) = V c main_v43 (ix2 e j)
  refine congrArg (V c main_v43) (funext fun a => Fin.ext ?_)
  match a with
  | ⟨0, _⟩ => show win1_1.index t (0 : Fin 2) * 6000 + 1 * r.val = e.val; rw [i1_0, he]; omega
  | ⟨1, _⟩ => show win1_1.index t (1 : Fin 2) * 128 + 1 * j.val = j.val; rw [i1_1]; omega

/-- Window 2's one block is its whole array. -/
theorem whole1_2 (c : Dev nD) (t : Fin cfg1.N) :
    (iblk1 V c 2 t : Vec Ideal S128x256 .f32) = (V c main_arg10 : Vec Ideal S128x256 .f32) := by
  obtain ⟨i0_0, i0_1, i1_0, i1_1, i2_0, i2_1, i3_0, i4_0, i5_0, i6_0, i7_0, i8_0, i8_1, i9_0, i10_0, i10_1⟩ := idx1 t
  funext y
  show V c main_arg10 (((cfg1.win 2).blk t).view.emb y) = V c main_arg10 y
  refine congrArg (V c main_arg10) (funext fun a => Fin.ext ?_)
  match a with
  | ⟨0, _⟩ => show win1_2.index t (0 : Fin 2) * 128 + 1 * (y 0).val = (y 0).val; rw [i2_0]; omega
  | ⟨1, _⟩ => show win1_2.index t (1 : Fin 2) * 256 + 1 * (y 1).val = (y 1).val; rw [i2_1]; omega

/-- Window 3's one block is its whole array. -/
theorem whole1_3 (c : Dev nD) (t : Fin cfg1.N) :
    (iblk1 V c 3 t : Vec Ideal S128 .f32) = (V c main_arg11 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg11 (((cfg1.win 3).blk t).view.emb y) = V c main_arg11 y
  refine congrArg (V c main_arg11) (funext fun a => Fin.ext ?_)
  match a with
  | ⟨0, _⟩ => show win1_3.index t (0 : Fin 1) * 128 + 1 * (y 0).val = (y 0).val; rw [i3_0]; omega

/-- Window 4's one block is its whole array. -/
theorem whole1_4 (c : Dev nD) (t : Fin cfg1.N) :
    (iblk1 V c 4 t : Vec Ideal S128 .f32) = (V c main_arg12 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg12 (((cfg1.win 4).blk t).view.emb y) = V c main_arg12 y
  refine congrArg (V c main_arg12) (funext fun a => Fin.ext ?_)
  match a with
  | ⟨0, _⟩ => show win1_4.index t (0 : Fin 1) * 128 + 1 * (y 0).val = (y 0).val; rw [i4_0]; omega

/-- Window 5's one block is its whole array. -/
theorem whole1_5 (c : Dev nD) (t : Fin cfg1.N) :
    (iblk1 V c 5 t : Vec Ideal S128 .f32) = (V c main_arg13 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg13 (((cfg1.win 5).blk t).view.emb y) = V c main_arg13 y
  refine congrArg (V c main_arg13) (funext fun a => Fin.ext ?_)
  match a with
  | ⟨0, _⟩ => show win1_5.index t (0 : Fin 1) * 128 + 1 * (y 0).val = (y 0).val; rw [i5_0]; omega

/-- Window 6's one block is its whole array. -/
theorem whole1_6 (c : Dev nD) (t : Fin cfg1.N) :
    (iblk1 V c 6 t : Vec Ideal S128 .f32) = (V c main_arg14 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg14 (((cfg1.win 6).blk t).view.emb y) = V c main_arg14 y
  refine congrArg (V c main_arg14) (funext fun a => Fin.ext ?_)
  match a with
  | ⟨0, _⟩ => show win1_6.index t (0 : Fin 1) * 128 + 1 * (y 0).val = (y 0).val; rw [i6_0]; omega

/-- Window 7's one block is its whole array. -/
theorem whole1_7 (c : Dev nD) (t : Fin cfg1.N) :
    (iblk1 V c 7 t : Vec Ideal S128 .f32) = (V c main_arg15 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg15 (((cfg1.win 7).blk t).view.emb y) = V c main_arg15 y
  refine congrArg (V c main_arg15) (funext fun a => Fin.ext ?_)
  match a with
  | ⟨0, _⟩ => show win1_7.index t (0 : Fin 1) * 128 + 1 * (y 0).val = (y 0).val; rw [i7_0]; omega

/-- Window 8's one block is its whole array. -/
theorem whole1_8 (c : Dev nD) (t : Fin cfg1.N) :
    (iblk1 V c 8 t : Vec Ideal S128x128 .f32) = (V c main_arg16 : Vec Ideal S128x128 .f32) := by
  obtain ⟨i0_0, i0_1, i1_0, i1_1, i2_0, i2_1, i3_0, i4_0, i5_0, i6_0, i7_0, i8_0, i8_1, i9_0, i10_0, i10_1⟩ := idx1 t
  funext y
  show V c main_arg16 (((cfg1.win 8).blk t).view.emb y) = V c main_arg16 y
  refine congrArg (V c main_arg16) (funext fun a => Fin.ext ?_)
  match a with
  | ⟨0, _⟩ => show win1_8.index t (0 : Fin 2) * 128 + 1 * (y 0).val = (y 0).val; rw [i8_0]; omega
  | ⟨1, _⟩ => show win1_8.index t (1 : Fin 2) * 128 + 1 * (y 1).val = (y 1).val; rw [i8_1]; omega

/-- Window 9's one block is its whole array. -/
theorem whole1_9 (c : Dev nD) (t : Fin cfg1.N) :
    (iblk1 V c 9 t : Vec Ideal S128 .f32) = (V c main_arg17 : Vec Ideal S128 .f32) := by
  obtain ⟨i0_0, i0_1, i1_0, i1_1, i2_0, i2_1, i3_0, i4_0, i5_0, i6_0, i7_0, i8_0, i8_1, i9_0, i10_0, i10_1⟩ := idx1 t
  funext y
  show V c main_arg17 (((cfg1.win 9).blk t).view.emb y) = V c main_arg17 y
  refine congrArg (V c main_arg17) (funext fun a => Fin.ext ?_)
  match a with
  | ⟨0, _⟩ => show win1_9.index t (0 : Fin 1) * 128 + 1 * (y 0).val = (y 0).val; rw [i9_0]; omega

/-- The message array of region 1: the per-edge function of the arrays the region finds. -/
abbrev msg1 (c : Dev nD) : Vec Ideal S600000x128 .f32 :=
  edgeArr (E := 600000) (V c main_v36) (V c main_v43) (V c main_arg10) (V c main_arg11) (V c main_arg12) (V c main_arg13) (V c main_arg14) (V c main_arg15) (V c main_arg16) (V c main_arg17)

/-- WHAT POINT `t` WRITES BACK is block `t` of the message array: row `r` of the stored block is the per-edge function
    of row `r` of the two loaded row blocks, which are rows `6000 t + r` of the arrays, and of the parameters whole. -/
theorem flushed1 (c : Dev nD) (t : Fin cfg1.N) :
    (dat1 V c).flushed 10 t = ((cfg1.win 10).blk t).view.read (Elt Ideal) (msg1 V c) := by
  show (cfg1.win 10).cut (grid1.coords t) ((dat1 V c).after 10 t) = _
  rw [after1_10]
  obtain ⟨i0_0, i0_1, i1_0, i1_1, i2_0, i2_1, i3_0, i4_0, i5_0, i6_0, i7_0, i8_0, i8_1, i9_0, i10_0, i10_1⟩ := idx1 t
  have ht : t.val < 100 := lt_of_lt_of_eq t.isLt (N_1 : cfg1.N = 100)
  funext y
  obtain ⟨r, q, rfl⟩ : ∃ (r : Fin 6000) (q : Fin 128), y = ix2 r q := ⟨y 0, y 1, eq_ix2 y⟩
  have hr : r.val < 6000 := r.isLt
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r q)
    = msg1 V c (((cfg1.win 10).blk t).view.emb (ix2 r q))
  have hemb : ((cfg1.win 10).blk t).view.emb (ix2 r q) = ix2 (⟨6000 * t.val + r.val, by omega⟩ : Fin 600000) q :=
    funext fun a => Fin.ext (by
      match a with
      | ⟨0, _⟩ => show win1_10.index t (0 : Fin 2) * 6000 + 1 * r.val = 6000 * t.val + r.val; rw [i10_0]; omega
      | ⟨1, _⟩ => show win1_10.index t (1 : Fin 2) * 128 + 1 * q.val = q.val; rw [i10_1]; omega)
  rw [hemb, out1_apply, whole1_2 V c t, whole1_3 V c t, whole1_4 V c t, whole1_5 V c t, whole1_6 V c t, whole1_7 V c t,
    whole1_8 V c t, whole1_9 V c t]
  exact edgeMlp_congr (iblk1 V c 0 t) (iblk1 V c 1 t) (V c main_v36) (V c main_v43) (V c main_arg10) (V c main_arg11) (V c main_arg12)
    (V c main_arg13) (V c main_arg14) (V c main_arg15) (V c main_arg16) (V c main_arg17) r (⟨6000 * t.val + r.val, by omega⟩ : Fin 600000)
    (fun j => rows1_0 V c t r j _ rfl) (fun j => rows1_1 V c t r j _ rfl) q

/-- An index of the output array is in point `t`'s block iff each coordinate is in the block's range on its axis. -/
theorem mem_blk1 (t : Fin cfg1.N) (i : S600000x128.Idx) :
    i ∈ ((cfg1.win 10).blk t).view.set ↔ ∀ a : Fin 2, win1_10.index t a * S6000x128.size a ≤ (i a).val ∧ (i a).val < win1_10.index t a * S6000x128.size a + S6000x128.size a := by
  show i ∈ ((View.whole main_v44).slice (win1_10.rect t)).set ↔ _
  rw [View.set_slice_whole, Rect.mem_set_unit]
  exact Iff.rfl

/-- The 100 blocks of 6000 rows tile the 600000 rows: row `R` is in the block of point `R / 6000`. -/
theorem cover1 (i : S600000x128.Idx) : ∃ t : Fin cfg1.N, (cfg1.win 10).flush t = true ∧ i ∈ ((cfg1.win 10).blk t).view.set := by
  have hi0 : (i 0).val < 600000 := (i 0).isLt
  have hi1 : (i 1).val < 128 := (i 1).isLt
  have hN : cfg1.N = 100 := N_1
  refine ⟨⟨(i 0).val / 6000, by rw [hN]; omega⟩, flush1_10 _, ?_⟩
  rw [mem_blk1]
  obtain ⟨i0_0, i0_1, i1_0, i1_1, i2_0, i2_1, i3_0, i4_0, i5_0, i6_0, i7_0, i8_0, i8_1, i9_0, i10_0, i10_1⟩ := idx1 ⟨(i 0).val / 6000, by rw [hN]; omega⟩
  intro a
  match a with
  | ⟨0, _⟩ => show win1_10.index _ (0 : Fin 2) * 6000 ≤ (i 0).val ∧ (i 0).val < win1_10.index _ (0 : Fin 2) * 6000 + 6000; rw [i10_0]; show (i 0).val / 6000 * 6000 ≤ (i 0).val ∧ (i 0).val < (i 0).val / 6000 * 6000 + 6000; omega
  | ⟨1, _⟩ => show win1_10.index _ (1 : Fin 2) * 128 ≤ (i 1).val ∧ (i 1).val < win1_10.index _ (1 : Fin 2) * 128 + 128; rw [i10_1]; omega

/-- THE OUTPUT ARRAY after region 1: the message array of the arrays the region finds. -/
theorem final1 (c : Dev nD) : (dat1 V c).arrAt 10 cfg1.N = msg1 V c :=
  (dat1 V c).arrAt_eq_of_cover 10 (msg1 V c) (fun t _ => flushed1 V c t) cover1

end Cert.KernelIdeal.Blocks

end
-- ==== Proof.KernelFold.lean ====
/-
  The kernel program's result, read through the program: the contents of the result buffer after the last host
  stretch are the network (Net) of the argument arrays.

  The program is: a host stretch that cuts the edge list into source and target indices and gathers the rows of the
  features at both ends of every edge; kernel region 0, whose output array is the message array of those gathered
  rows (KernelBlocks); host stretches that sum the messages per target node, rectify, and divide every row by its
  norm, then gather again; kernel region 1; and a last stretch that sums its messages per target node. Each stretch
  is read once for an arbitrary entry valuation `X`; the boundary contents of the run are then followed from the
  launch memory to the result. A change of float format is the identity at the ideal values.
-/
import proofs.«133055_j85873576117019_2_alg».proof.Proof.Gen.KernelIdeal.Frame
import proofs.«133055_j85873576117019_2_alg».proof.Proof.Net
import proofs.«133055_j85873576117019_2_alg».proof.Proof.KernelBlocks
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Net Cert.KernelIdeal.Blocks Cert.EdgeConv

/-- The change of float format the kernel's gathers read through: the identity at the ideal values. -/
abbrev toBf16 (x : Vec Ideal S50000x128 .f32) : Vec Ideal S50000x128 .bf16 :=
  truncf (F := Ideal) (s := S50000x128) (φ := .f32) .bf16 x bitsLt_bf16_f32

/-! ## Each host stretch, from any entry contents -/

section Stretches

variable (X : Valuation τ sig (Elt Ideal))

/-- The first stretch leaves the target indices, the source indices, and the rows gathered at each. -/
theorem pre_v3 : after (hostOps0 (F := Ideal)) X (Proc.devRef .tc main_v3) = dstOf (X (Proc.devRef .tc main_arg1)) := by
  after_results_simp <;> rfl
theorem pre_v1 : after (hostOps0 (F := Ideal)) X (Proc.devRef .tc main_v1) = srcOf (X (Proc.devRef .tc main_arg1)) := by
  after_results_simp <;> rfl
theorem pre_v11 : after (hostOps0 (F := Ideal)) X (Proc.devRef .tc main_v11)
    = rowsAt (e := .bf16) (toBf16 (X (Proc.devRef .tc main_arg0))) (dstOf (X (Proc.devRef .tc main_arg1))) := by
  after_results_simp <;> rfl
theorem pre_v18 : after (hostOps0 (F := Ideal)) X (Proc.devRef .tc main_v18)
    = rowsAt (e := .bf16) (toBf16 (X (Proc.devRef .tc main_arg0))) (srcOf (X (Proc.devRef .tc main_arg1))) := by
  after_results_simp <;> rfl

/-- The sum of region 0's messages per target node. -/
theorem sum_v22 : after (hostOps1 (F := Ideal)) X (Proc.devRef .tc main_v22) = segSum (X (Proc.devRef .tc main_v3)) (X (Proc.devRef .tc main_v19)) := by
  after_results_simp <;> rfl
/-- The rectifier. -/
theorem relu_v23 : after (hostOps1_1 (F := Ideal)) X (Proc.devRef .tc main_v23) = relu (X (Proc.devRef .tc main_v22)) := by
  after_results_simp <;> rfl
/-- The rows' norms; the rectified features stay. -/
theorem norm_v24 : after (hostOps1_2 (F := Ideal)) X (Proc.devRef .tc main_v24) = rowNorm (X (Proc.devRef .tc main_v23)) := by
  after_results_simp <;> rfl
theorem norm_keep_v23 : after (hostOps1_2 (F := Ideal)) X (Proc.devRef .tc main_v23) = X (Proc.devRef .tc main_v23) := by after_results_simp
theorem norm_keep_v3 : after (hostOps1_2 (F := Ideal)) X (Proc.devRef .tc main_v3) = X (Proc.devRef .tc main_v3) := by after_results_simp
theorem norm_keep_v1 : after (hostOps1_2 (F := Ideal)) X (Proc.devRef .tc main_v1) = X (Proc.devRef .tc main_v1) := by after_results_simp
/-- The division by the bounded norm, and the second gathers. -/
theorem gather_v36 : after (hostOps1_3 (F := Ideal)) X (Proc.devRef .tc main_v36)
    = rowsAt (e := .bf16) (toBf16 (scaleRows (X (Proc.devRef .tc main_v23)) (X (Proc.devRef .tc main_v24)))) (X (Proc.devRef .tc main_v3)) := by
  after_results_simp <;> rfl
theorem gather_v43 : after (hostOps1_3 (F := Ideal)) X (Proc.devRef .tc main_v43)
    = rowsAt (e := .bf16) (toBf16 (scaleRows (X (Proc.devRef .tc main_v23)) (X (Proc.devRef .tc main_v24)))) (X (Proc.devRef .tc main_v1)) := by
  after_results_simp <;> rfl
/-- The last stretch: the sum of region 1's messages per target node. -/
theorem sum_v47 : after (hostOps2 (F := Ideal)) X (Proc.devRef .tc main_v47) = segSum (X (Proc.devRef .tc main_v3)) (X (Proc.devRef .tc main_v44)) := by
  after_results_simp <;> rfl

/-- No stretch writes an argument, and the index arrays are written once. -/
theorem pre_keep_main_arg2 : after (hostOps0 (F := Ideal)) X (Proc.devRef .tc main_arg2) = X (Proc.devRef .tc main_arg2) := by after_results_simp
theorem pre_keep_main_arg3 : after (hostOps0 (F := Ideal)) X (Proc.devRef .tc main_arg3) = X (Proc.devRef .tc main_arg3) := by after_results_simp
theorem pre_keep_main_arg4 : after (hostOps0 (F := Ideal)) X (Proc.devRef .tc main_arg4) = X (Proc.devRef .tc main_arg4) := by after_results_simp
theorem pre_keep_main_arg5 : after (hostOps0 (F := Ideal)) X (Proc.devRef .tc main_arg5) = X (Proc.devRef .tc main_arg5) := by after_results_simp
theorem pre_keep_main_arg6 : after (hostOps0 (F := Ideal)) X (Proc.devRef .tc main_arg6) = X (Proc.devRef .tc main_arg6) := by after_results_simp
theorem pre_keep_main_arg7 : after (hostOps0 (F := Ideal)) X (Proc.devRef .tc main_arg7) = X (Proc.devRef .tc main_arg7) := by after_results_simp
theorem pre_keep_main_arg8 : after (hostOps0 (F := Ideal)) X (Proc.devRef .tc main_arg8) = X (Proc.devRef .tc main_arg8) := by after_results_simp
theorem pre_keep_main_arg9 : after (hostOps0 (F := Ideal)) X (Proc.devRef .tc main_arg9) = X (Proc.devRef .tc main_arg9) := by after_results_simp
theorem pre_keep_main_arg10 : after (hostOps0 (F := Ideal)) X (Proc.devRef .tc main_arg10) = X (Proc.devRef .tc main_arg10) := by after_results_simp
theorem pre_keep_main_arg11 : after (hostOps0 (F := Ideal)) X (Proc.devRef .tc main_arg11) = X (Proc.devRef .tc main_arg11) := by after_results_simp
theorem pre_keep_main_arg12 : after (hostOps0 (F := Ideal)) X (Proc.devRef .tc main_arg12) = X (Proc.devRef .tc main_arg12) := by after_results_simp
theorem pre_keep_main_arg13 : after (hostOps0 (F := Ideal)) X (Proc.devRef .tc main_arg13) = X (Proc.devRef .tc main_arg13) := by after_results_simp
theorem pre_keep_main_arg14 : after (hostOps0 (F := Ideal)) X (Proc.devRef .tc main_arg14) = X (Proc.devRef .tc main_arg14) := by after_results_simp
theorem pre_keep_main_arg15 : after (hostOps0 (F := Ideal)) X (Proc.devRef .tc main_arg15) = X (Proc.devRef .tc main_arg15) := by after_results_simp
theorem pre_keep_main_arg16 : after (hostOps0 (F := Ideal)) X (Proc.devRef .tc main_arg16) = X (Proc.devRef .tc main_arg16) := by after_results_simp
theorem pre_keep_main_arg17 : after (hostOps0 (F := Ideal)) X (Proc.devRef .tc main_arg17) = X (Proc.devRef .tc main_arg17) := by after_results_simp
theorem mid_keep_main_v3 : after (hostOps1_3 (F := Ideal)) (after hostOps1_2 (after hostOps1_1 (after hostOps1 X))) (Proc.devRef .tc main_v3) = X (Proc.devRef .tc main_v3) := by after_results_simp
theorem mid_keep_main_arg10 : after (hostOps1_3 (F := Ideal)) (after hostOps1_2 (after hostOps1_1 (after hostOps1 X))) (Proc.devRef .tc main_arg10) = X (Proc.devRef .tc main_arg10) := by after_results_simp
theorem mid_keep_main_arg11 : after (hostOps1_3 (F := Ideal)) (after hostOps1_2 (after hostOps1_1 (after hostOps1 X))) (Proc.devRef .tc main_arg11) = X (Proc.devRef .tc main_arg11) := by after_results_simp
theorem mid_keep_main_arg12 : after (hostOps1_3 (F := Ideal)) (after hostOps1_2 (after hostOps1_1 (after hostOps1 X))) (Proc.devRef .tc main_arg12) = X (Proc.devRef .tc main_arg12) := by after_results_simp
theorem mid_keep_main_arg13 : after (hostOps1_3 (F := Ideal)) (after hostOps1_2 (after hostOps1_1 (after hostOps1 X))) (Proc.devRef .tc main_arg13) = X (Proc.devRef .tc main_arg13) := by after_results_simp
theorem mid_keep_main_arg14 : after (hostOps1_3 (F := Ideal)) (after hostOps1_2 (after hostOps1_1 (after hostOps1 X))) (Proc.devRef .tc main_arg14) = X (Proc.devRef .tc main_arg14) := by after_results_simp
theorem mid_keep_main_arg15 : after (hostOps1_3 (F := Ideal)) (after hostOps1_2 (after hostOps1_1 (after hostOps1 X))) (Proc.devRef .tc main_arg15) = X (Proc.devRef .tc main_arg15) := by after_results_simp
theorem mid_keep_main_arg16 : after (hostOps1_3 (F := Ideal)) (after hostOps1_2 (after hostOps1_1 (after hostOps1 X))) (Proc.devRef .tc main_arg16) = X (Proc.devRef .tc main_arg16) := by after_results_simp
theorem mid_keep_main_arg17 : after (hostOps1_3 (F := Ideal)) (after hostOps1_2 (after hostOps1_1 (after hostOps1 X))) (Proc.devRef .tc main_arg17) = X (Proc.devRef .tc main_arg17) := by after_results_simp
theorem mid3_keep_main_v3 : after (hostOps1_2 (F := Ideal)) (after hostOps1_1 (after hostOps1 X)) (Proc.devRef .tc main_v3) = X (Proc.devRef .tc main_v3) := by after_results_simp
theorem mid3_keep_main_v1 : after (hostOps1_2 (F := Ideal)) (after hostOps1_1 (after hostOps1 X)) (Proc.devRef .tc main_v1) = X (Proc.devRef .tc main_v1) := by after_results_simp

theorem h1_keep_v3 : after (hostOps1 (F := Ideal)) X (Proc.devRef .tc main_v3) = X (Proc.devRef .tc main_v3) := by after_results_simp
theorem h1_keep_v1 : after (hostOps1 (F := Ideal)) X (Proc.devRef .tc main_v1) = X (Proc.devRef .tc main_v1) := by after_results_simp
theorem h11_keep_v3 : after (hostOps1_1 (F := Ideal)) X (Proc.devRef .tc main_v3) = X (Proc.devRef .tc main_v3) := by after_results_simp
theorem h11_keep_v1 : after (hostOps1_1 (F := Ideal)) X (Proc.devRef .tc main_v1) = X (Proc.devRef .tc main_v1) := by after_results_simp

end Stretches

/-! ## The run's boundary contents, from the launch memory to the result -/

variable (m : (ℓ : Loc nD τ sig) → Buf (Elt Ideal) ℓ) (ρ : Dev nD → PrngReg) (c : Dev nD)

/-- The features as the kernel's gathers read them: their float format changed, which changes nothing here. -/
abbrev feat : Vec Ideal S50000x128 .bf16 := toBf16 (m ((c : Thread nD τ).loc main_arg0))
/-- The target and source node of every edge. -/
abbrev dstI : Vec Ideal S600000 .i32 := dstOf (m ((c : Thread nD τ).loc main_arg1))
abbrev srcI : Vec Ideal S600000 .i32 := srcOf (m ((c : Thread nD τ).loc main_arg1))

theorem W1_v3 : W1 m ρ c (Proc.devRef .tc main_v3) = dstI m c := pre_v3 (W0 m ρ c)
theorem W1_v1 : W1 m ρ c (Proc.devRef .tc main_v1) = srcI m c := pre_v1 (W0 m ρ c)
theorem W1_v11 : W1 m ρ c (Proc.devRef .tc main_v11) = rowsAt (e := .bf16) (feat m c) (dstI m c) := pre_v11 (W0 m ρ c)
theorem W1_v18 : W1 m ρ c (Proc.devRef .tc main_v18) = rowsAt (e := .bf16) (feat m c) (srcI m c) := pre_v18 (W0 m ρ c)
theorem W1_main_arg2 : W1 m ρ c (Proc.devRef .tc main_arg2) = (m ((c : Thread nD τ).loc main_arg2)) := pre_keep_main_arg2 (W0 m ρ c)
theorem W1_main_arg3 : W1 m ρ c (Proc.devRef .tc main_arg3) = (m ((c : Thread nD τ).loc main_arg3)) := pre_keep_main_arg3 (W0 m ρ c)
theorem W1_main_arg4 : W1 m ρ c (Proc.devRef .tc main_arg4) = (m ((c : Thread nD τ).loc main_arg4)) := pre_keep_main_arg4 (W0 m ρ c)
theorem W1_main_arg5 : W1 m ρ c (Proc.devRef .tc main_arg5) = (m ((c : Thread nD τ).loc main_arg5)) := pre_keep_main_arg5 (W0 m ρ c)
theorem W1_main_arg6 : W1 m ρ c (Proc.devRef .tc main_arg6) = (m ((c : Thread nD τ).loc main_arg6)) := pre_keep_main_arg6 (W0 m ρ c)
theorem W1_main_arg7 : W1 m ρ c (Proc.devRef .tc main_arg7) = (m ((c : Thread nD τ).loc main_arg7)) := pre_keep_main_arg7 (W0 m ρ c)
theorem W1_main_arg8 : W1 m ρ c (Proc.devRef .tc main_arg8) = (m ((c : Thread nD τ).loc main_arg8)) := pre_keep_main_arg8 (W0 m ρ c)
theorem W1_main_arg9 : W1 m ρ c (Proc.devRef .tc main_arg9) = (m ((c : Thread nD τ).loc main_arg9)) := pre_keep_main_arg9 (W0 m ρ c)
theorem W6_main_arg10 : W6 m ρ c (Proc.devRef .tc main_arg10) = (m ((c : Thread nD τ).loc main_arg10)) :=
  (mid_keep_main_arg10 (W2 m ρ c)).trans ((W2_of_ne m ρ c main_arg10 (by decide)).trans (pre_keep_main_arg10 (W0 m ρ c)))
theorem W6_main_arg11 : W6 m ρ c (Proc.devRef .tc main_arg11) = (m ((c : Thread nD τ).loc main_arg11)) :=
  (mid_keep_main_arg11 (W2 m ρ c)).trans ((W2_of_ne m ρ c main_arg11 (by decide)).trans (pre_keep_main_arg11 (W0 m ρ c)))
theorem W6_main_arg12 : W6 m ρ c (Proc.devRef .tc main_arg12) = (m ((c : Thread nD τ).loc main_arg12)) :=
  (mid_keep_main_arg12 (W2 m ρ c)).trans ((W2_of_ne m ρ c main_arg12 (by decide)).trans (pre_keep_main_arg12 (W0 m ρ c)))
theorem W6_main_arg13 : W6 m ρ c (Proc.devRef .tc main_arg13) = (m ((c : Thread nD τ).loc main_arg13)) :=
  (mid_keep_main_arg13 (W2 m ρ c)).trans ((W2_of_ne m ρ c main_arg13 (by decide)).trans (pre_keep_main_arg13 (W0 m ρ c)))
theorem W6_main_arg14 : W6 m ρ c (Proc.devRef .tc main_arg14) = (m ((c : Thread nD τ).loc main_arg14)) :=
  (mid_keep_main_arg14 (W2 m ρ c)).trans ((W2_of_ne m ρ c main_arg14 (by decide)).trans (pre_keep_main_arg14 (W0 m ρ c)))
theorem W6_main_arg15 : W6 m ρ c (Proc.devRef .tc main_arg15) = (m ((c : Thread nD τ).loc main_arg15)) :=
  (mid_keep_main_arg15 (W2 m ρ c)).trans ((W2_of_ne m ρ c main_arg15 (by decide)).trans (pre_keep_main_arg15 (W0 m ρ c)))
theorem W6_main_arg16 : W6 m ρ c (Proc.devRef .tc main_arg16) = (m ((c : Thread nD τ).loc main_arg16)) :=
  (mid_keep_main_arg16 (W2 m ρ c)).trans ((W2_of_ne m ρ c main_arg16 (by decide)).trans (pre_keep_main_arg16 (W0 m ρ c)))
theorem W6_main_arg17 : W6 m ρ c (Proc.devRef .tc main_arg17) = (m ((c : Thread nD τ).loc main_arg17)) :=
  (mid_keep_main_arg17 (W2 m ρ c)).trans ((W2_of_ne m ρ c main_arg17 (by decide)).trans (pre_keep_main_arg17 (W0 m ρ c)))

/-- Region 0's messages. -/
abbrev msgA : Vec Ideal S600000x128 .f32 :=
  edgeArr (E := 600000) (rowsAt (e := .bf16) (feat m c) (dstI m c)) (rowsAt (e := .bf16) (feat m c) (srcI m c)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem W2_v19 : W2 m ρ c (Proc.devRef .tc main_v19) = msgA m c := by
  refine ((W2_arr m ρ c 10).trans (final0 (V1 m ρ) c)).trans ?_
  show edgeArr (E := 600000) (W1 m ρ c (Proc.devRef .tc main_v11)) (W1 m ρ c (Proc.devRef .tc main_v18)) (W1 m ρ c (Proc.devRef .tc main_arg2)) (W1 m ρ c (Proc.devRef .tc main_arg3)) (W1 m ρ c (Proc.devRef .tc main_arg4)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) = _
  rw [W1_v11, W1_v18, W1_main_arg2, W1_main_arg3, W1_main_arg4, W1_main_arg5, W1_main_arg6, W1_main_arg7, W1_main_arg8, W1_main_arg9]

theorem W2_v3 : W2 m ρ c (Proc.devRef .tc main_v3) = dstI m c := (W2_of_ne m ρ c main_v3 (by decide)).trans (W1_v3 m ρ c)
theorem W2_v1 : W2 m ρ c (Proc.devRef .tc main_v1) = srcI m c := (W2_of_ne m ρ c main_v1 (by decide)).trans (W1_v1 m ρ c)

/-- The first layer's node features, rectified, and their rows' norms. -/
abbrev nodesA : Vec Ideal S50000x128 .f32 := relu (segSum (dstI m c) (msgA m c))

theorem W4_v23 : W4 m ρ c (Proc.devRef .tc main_v23) = nodesA m c := by
  refine (relu_v23 (W3 m ρ c)).trans ?_
  show relu (W3 m ρ c (Proc.devRef .tc main_v22)) = _
  rw [show W3 m ρ c (Proc.devRef .tc main_v22) = _ from sum_v22 (W2 m ρ c), W2_v3, W2_v19]

theorem W5_v23 : W5 m ρ c (Proc.devRef .tc main_v23) = nodesA m c := (norm_keep_v23 (W4 m ρ c)).trans (W4_v23 m ρ c)
theorem W5_v24 : W5 m ρ c (Proc.devRef .tc main_v24) = rowNorm (nodesA m c) := by
  refine (norm_v24 (W4 m ρ c)).trans ?_
  show rowNorm (W4 m ρ c (Proc.devRef .tc main_v23)) = _
  rw [W4_v23]
theorem W5_v3 : W5 m ρ c (Proc.devRef .tc main_v3) = dstI m c :=
  (mid3_keep_main_v3 (W2 m ρ c)).trans (W2_v3 m ρ c)
theorem W5_v1 : W5 m ρ c (Proc.devRef .tc main_v1) = srcI m c :=
  (mid3_keep_main_v1 (W2 m ρ c)).trans (W2_v1 m ρ c)

/-- The second layer's input features as the kernel's gathers read them. -/
abbrev featB : Vec Ideal S50000x128 .bf16 := toBf16 (scaleRows (nodesA m c) (rowNorm (nodesA m c)))

theorem W6_v36 : W6 m ρ c (Proc.devRef .tc main_v36) = rowsAt (e := .bf16) (featB m c) (dstI m c) := by
  refine (gather_v36 (W5 m ρ c)).trans ?_
  show rowsAt (e := .bf16) (toBf16 (scaleRows (W5 m ρ c (Proc.devRef .tc main_v23)) (W5 m ρ c (Proc.devRef .tc main_v24)))) (W5 m ρ c (Proc.devRef .tc main_v3)) = _
  rw [W5_v23, W5_v24, W5_v3]
theorem W6_v43 : W6 m ρ c (Proc.devRef .tc main_v43) = rowsAt (e := .bf16) (featB m c) (srcI m c) := by
  refine (gather_v43 (W5 m ρ c)).trans ?_
  show rowsAt (e := .bf16) (toBf16 (scaleRows (W5 m ρ c (Proc.devRef .tc main_v23)) (W5 m ρ c (Proc.devRef .tc main_v24)))) (W5 m ρ c (Proc.devRef .tc main_v1)) = _
  rw [W5_v23, W5_v24, W5_v1]

/-- Region 1's messages. -/
abbrev msgB : Vec Ideal S600000x128 .f32 :=
  edgeArr (E := 600000) (rowsAt (e := .bf16) (featB m c) (dstI m c)) (rowsAt (e := .bf16) (featB m c) (srcI m c)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

theorem W7_v44 : W7 m ρ c (Proc.devRef .tc main_v44) = msgB m c := by
  refine ((W7_arr m ρ c 10).trans (final1 (V6 m ρ) c)).trans ?_
  show edgeArr (E := 600000) (W6 m ρ c (Proc.devRef .tc main_v36)) (W6 m ρ c (Proc.devRef .tc main_v43)) (W6 m ρ c (Proc.devRef .tc main_arg10)) (W6 m ρ c (Proc.devRef .tc main_arg11)) (W6 m ρ c (Proc.devRef .tc main_arg12)) (W6 m ρ c (Proc.devRef .tc main_arg13)) (W6 m ρ c (Proc.devRef .tc main_arg14)) (W6 m ρ c (Proc.devRef .tc main_arg15)) (W6 m ρ c (Proc.devRef .tc main_arg16)) (W6 m ρ c (Proc.devRef .tc main_arg17)) = _
  rw [W6_v36, W6_v43, W6_main_arg10, W6_main_arg11, W6_main_arg12, W6_main_arg13, W6_main_arg14, W6_main_arg15, W6_main_arg16, W6_main_arg17]

theorem W7_v3 : W7 m ρ c (Proc.devRef .tc main_v3) = dstI m c :=
  (W7_of_ne m ρ c main_v3 (by decide)).trans ((mid_keep_main_v3 (W2 m ρ c)).trans (W2_v3 m ρ c))

set_option maxRecDepth 65536 in
/-- THE RESULT: the last boundary's contents of the result buffer are the network of the argument arrays. -/
theorem result_eq : W8 m ρ c (Proc.devRef .tc main_v47)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (sum_v47 (W7 m ρ c)).trans ?_
  show segSum (W7 m ρ c (Proc.devRef .tc main_v3)) (W7 m ρ c (Proc.devRef .tc main_v44)) = _
  rw [W7_v3, W7_v44]
  rfl

end Cert.KernelIdeal.Fold

end
-- ==== Proof.RefEdge.lean ====
/-
  The reference's per-edge chain of one EdgeConv layer, read index by index at the ideal values: it is the per-edge
  function (EdgeSpec).

  The reference joins the target features and the feature differences side by side into 256 columns, multiplies by the
  transposed first weight, adds the bias, rectifies, normalises with the running statistics, multiplies by the
  transposed second weight and adds its bias. Read at an edge row and an output column, each matrix product is a plain
  sum over its contracted columns; the sum over the 256 joined columns splits into the sum over the first 128 (the
  target features) and the sum over the last 128 (the differences).
-/
import proofs.«133055_j85873576117019_2_alg».proof.ReferenceIdeal
import proofs.«133055_j85873576117019_2_alg».proof.Proof.EdgeSpec
import Idealize.ShloMosaic.Lib.Pipeline.Value
import Idealize.ShloMosaic.Lib.ValueIdx
import Idealize.ShloMosaic.PureOps.Ideal.Laws

noncomputable section

open scoped BigOperators

namespace Cert.ReferenceIdeal.Edge

open Idealize.ShloMosaic Idealize.ShloMosaic.ValueIdx Cert.ReferenceIdeal Cert.ReferenceIdeal.Facts₀ Cert.EdgeConv

variable {F : FTy → Type} [FloatOps F] [Cert.ReferenceIdeal.Facts]

/-- The reference's per-edge chain of one layer, as its @main spells it. -/
def refMlp (xi xj : Vec F S600000x128 .f32) (wa : Vec F S128x256 .f32) (ba g be rm rv : Vec F S128 .f32)
    (wb : Vec F S128x128 .f32) (bb : Vec F S128 .f32) : Vec F S600000x128 .f32 :=
  addf (Host.dotGeneral dot_S600000x128_S128x128_S600000x128_1_0_0_1_n_n none
      (addf (mulf (subf (maximumf (addf (Host.dotGeneral dot_S600000x256_S256x128_S600000x128_1_0_0_1_n_n none
                (concatenate S600000x256 1 [⟨S600000x128, xi⟩, ⟨S600000x128, subf xj xi⟩] concatenates_S600000x128_S600000x128_S600000x256_d1)
                (transpose S256x128 [1, 0] wa transposes_S128x256_S256x128_1_0))
              (broadcastInDim S600000x128 ![0, 1] bcast_S1x128_S600000x128_0_1 (broadcastInDim S1x128 ![1] bcast_S128_S1x128_1 ba)))
            (broadcastInDim S600000x128 ![] bcast_S_S600000x128 (constant S_ .f32 0x00000000#32)))
          (broadcastInDim S600000x128 ![0, 1] bcast_S1x128_S600000x128_0_1 (broadcastInDim S1x128 ![1] bcast_S128_S1x128_1 rm)))
        (broadcastInDim S600000x128 ![0, 1] bcast_S1x128_S600000x128_0_1 (broadcastInDim S1x128 ![1] bcast_S128_S1x128_1 (mulf g (Host.rsqrt (addf rv (broadcastInDim S128 ![] bcast_S_S128 (constant S_ .f32 0x3727C5AC#32))))))))
      (broadcastInDim S600000x128 ![0, 1] bcast_S1x128_S600000x128_0_1 (broadcastInDim S1x128 ![1] bcast_S128_S1x128_1 be)))
    (transpose S128x128 [1, 0] wb transposes_S128x128_S128x128_1_0))
  (broadcastInDim S600000x128 ![0, 1] bcast_S1x128_S600000x128_0_1 (broadcastInDim S1x128 ![1] bcast_S128_S1x128_1 bb))

/-! ## The layout operations of the chain, read at a row and a column -/

/-- A vector of 128 entries laid along the columns of every row: at row `e` and column `c` it is the vector's entry `c`. -/
theorem rowvec_apply {α : Type} (v : S128.Idx → α) (e : Fin 600000) (c : Fin 128) :
    broadcastInDim S600000x128 ![0, 1] bcast_S1x128_S600000x128_0_1 (broadcastInDim S1x128 ![1] bcast_S128_S1x128_1 v) (ix2 e c)
      = v (ix1 c) := by
  refine (broadcastInDim_apply _ bcast_S1x128_S600000x128_0_1 _ (ix2 e c) (ix2 (0 : Fin 1) c) (fun a => match a with
    | ⟨0, _⟩ => by show 0 = if (1 : Nat) = 1 then 0 else e.val; rw [if_pos rfl]
    | ⟨1, _⟩ => by show c.val = if (128 : Nat) = 1 then 0 else c.val; rw [if_neg (by decide)])).trans ?_
  exact broadcastInDim_apply _ bcast_S128_S1x128_1 v (ix2 (0 : Fin 1) c) (ix1 c) (fun a => match a with
    | ⟨0, _⟩ => by show c.val = if (128 : Nat) = 1 then 0 else c.val; rw [if_neg (by decide)])

/-- A scalar constant spread over the whole array reads the constant's value everywhere. -/
theorem splat_apply (w : BitVec 32) (e : Fin 600000) (c : Fin 128) :
    broadcastInDim S600000x128 ![] bcast_S_S600000x128 (constant (F := Ideal) S_ .f32 w) (ix2 e c) = Ideal.ofBits .f32 w :=
  broadcastInDim_apply _ bcast_S_S600000x128 (constant (F := Ideal) S_ .f32 w) (ix2 e c) ix0 (fun a => a.elim0)

/-- A scalar constant spread over a vector of 128 entries reads the constant's value everywhere. -/
theorem splat128_apply (w : BitVec 32) (k : Fin 128) :
    broadcastInDim S128 ![] bcast_S_S128 (constant (F := Ideal) S_ .f32 w) (ix1 k) = Ideal.ofBits .f32 w :=
  broadcastInDim_apply _ bcast_S_S128 (constant (F := Ideal) S_ .f32 w) (ix1 k) ix0 (fun a => a.elim0)

/-- The transposed first weight at `(k, c)` is the weight at `(c, k)`. -/
theorem transA_apply {α : Type} (wa : S128x256.Idx → α) (k : Fin 256) (c : Fin 128) :
    transpose S256x128 [1, 0] wa transposes_S128x256_S256x128_1_0 (ix2 k c) = wa (ix2 c k) :=
  transpose_apply [1, 0] wa transposes_S128x256_S256x128_1_0 (ix2 k c) (ix2 c k) (fun b => match b with
    | ⟨0, _⟩ => rfl
    | ⟨1, _⟩ => rfl)

/-- The transposed second weight at `(k, c)` is the weight at `(c, k)`. -/
theorem transB_apply {α : Type} (wb : S128x128.Idx → α) (k : Fin 128) (c : Fin 128) :
    transpose S128x128 [1, 0] wb transposes_S128x128_S128x128_1_0 (ix2 k c) = wb (ix2 c k) :=
  transpose_apply [1, 0] wb transposes_S128x128_S128x128_1_0 (ix2 k c) (ix2 c k) (fun b => match b with
    | ⟨0, _⟩ => rfl
    | ⟨1, _⟩ => rfl)

/-- Two arrays of 128 columns joined side by side: a column below 128 reads the first array. -/
theorem concat_left {α : Type} (x y : S600000x128.Idx → α) (e : Fin 600000) (j : Fin 128) :
    concatenate S600000x256 1 [⟨S600000x128, x⟩, ⟨S600000x128, y⟩] concatenates_S600000x128_S600000x128_S600000x256_d1 (ix2 e (⟨j.val, by omega⟩ : Fin 256))
      = x (ix2 e j) :=
  concatenate_pair_apply_left 1 x y concatenates_S600000x128_S600000x128_S600000x256_d1 (ix2 e (⟨j.val, by omega⟩ : Fin 256)) rfl (ix2 e j) (fun b => match b with
    | ⟨0, _⟩ => rfl
    | ⟨1, _⟩ => rfl)

/-- Two arrays of 128 columns joined side by side: column `128 + j` reads the second array at column `j`. -/
theorem concat_right {α : Type} (x y : S600000x128.Idx → α) (e : Fin 600000) (j : Fin 128) :
    concatenate S600000x256 1 [⟨S600000x128, x⟩, ⟨S600000x128, y⟩] concatenates_S600000x128_S600000x128_S600000x256_d1 (ix2 e (⟨128 + j.val, by omega⟩ : Fin 256))
      = y (ix2 e j) :=
  concatenate_pair_apply_right 1 x y concatenates_S600000x128_S600000x128_S600000x256_d1 (ix2 e (⟨128 + j.val, by omega⟩ : Fin 256)) rfl rfl (ix2 e j)
    (fun b hb => match b, hb with
      | ⟨0, _⟩, _ => rfl
      | ⟨1, _⟩, hb => absurd (Fin.ext rfl) hb)
    (by show j.val + 128 = 128 + j.val; omega)

/-- The reciprocal square root of an array reads entry by entry. -/
theorem rsqrt_apply {s : Shape} (x : FVec Ideal s .f32) (i : s.Idx) : Host.rsqrt x i = Ideal.rsqrt (x i) := rfl

/-! ## The two matrix products, read at a row and a column -/

/-- The left operand's row coordinate under the contraction is the result's row. -/
theorem lhsA_0 (i : S600000x128.Idx) (q : dot_S600000x256_S256x128_S600000x128_1_0_0_1_n_n.contr.Idx) :
    (dot_S600000x256_S256x128_S600000x128_1_0_0_1_n_n.lhsIdx i q 0).val = (i 0).val := by
  unfold DotDims.lhsIdx
  rw [dif_neg (show ¬(0 : Fin S600000x256.rank) ∈ dot_S600000x256_S256x128_S600000x128_1_0_0_1_n_n.lhsBatch from List.not_mem_nil),
    dif_pos (show (0 : Fin S600000x256.rank) ∈ dot_S600000x256_S256x128_S600000x128_1_0_0_1_n_n.lhsNonContracting from List.mem_singleton.mpr rfl)]
  rfl

/-- The left operand's column coordinate under the contraction is the contracted one. -/
theorem lhsA_1 (i : S600000x128.Idx) (q : dot_S600000x256_S256x128_S600000x128_1_0_0_1_n_n.contr.Idx) :
    (dot_S600000x256_S256x128_S600000x128_1_0_0_1_n_n.lhsIdx i q 1).val = (q ⟨0, Nat.one_pos⟩).val :=
  dot_S600000x256_S256x128_S600000x128_1_0_0_1_n_n.lhsIdx_val_of_single rfl i q

/-- The right operand's row coordinate under the contraction is the contracted one. -/
theorem rhsA_0 (i : S600000x128.Idx) (q : dot_S600000x256_S256x128_S600000x128_1_0_0_1_n_n.contr.Idx) :
    (dot_S600000x256_S256x128_S600000x128_1_0_0_1_n_n.rhsIdx i q 0).val = (q ⟨0, Nat.one_pos⟩).val :=
  dot_S600000x256_S256x128_S600000x128_1_0_0_1_n_n.rhsIdx_val_of_single rfl i q

/-- The right operand's column coordinate under the contraction is the result's column. -/
theorem rhsA_1 (i : S600000x128.Idx) (q : dot_S600000x256_S256x128_S600000x128_1_0_0_1_n_n.contr.Idx) :
    (dot_S600000x256_S256x128_S600000x128_1_0_0_1_n_n.rhsIdx i q 1).val = (i 1).val := by
  unfold DotDims.rhsIdx
  rw [dif_neg (show ¬(1 : Fin S256x128.rank) ∈ dot_S600000x256_S256x128_S600000x128_1_0_0_1_n_n.rhsBatch from List.not_mem_nil),
    dif_pos (show (1 : Fin S256x128.rank) ∈ dot_S600000x256_S256x128_S600000x128_1_0_0_1_n_n.rhsNonContracting from List.mem_singleton.mpr rfl)]
  rfl

/-- The matrix product at row `e` and column `c`: the sum over the 256 contracted columns of the left operand's
    row `e` against the right operand's column `c`. -/
theorem dotA_apply (lhs : FVec Ideal S600000x256 .f32) (rhs : FVec Ideal S256x128 .f32) (e : Fin 600000) (c : Fin 128) :
    Host.dotGeneral dot_S600000x256_S256x128_S600000x128_1_0_0_1_n_n none lhs rhs (ix2 e c) = ∑ k : Fin 256, lhs (ix2 e k) * rhs (ix2 k c) := by
  simp only [Host.dotGeneral]
  rw [Ideal.dotGeneral_apply, ← Equiv.sum_comp (contrEquiv1 dot_S600000x256_S256x128_S600000x128_1_0_0_1_n_n 256 rfl rfl).symm]
  refine Finset.sum_congr rfl fun k _ => ?_
  have hk := contrEquiv1_symm_val dot_S600000x256_S256x128_S600000x128_1_0_0_1_n_n 256 rfl rfl k
  have el : dot_S600000x256_S256x128_S600000x128_1_0_0_1_n_n.lhsIdx (ix2 e c) ((contrEquiv1 dot_S600000x256_S256x128_S600000x128_1_0_0_1_n_n 256 rfl rfl).symm k) = ix2 e k :=
    funext fun a => Fin.ext (by
      match a with
      | ⟨0, _⟩ => exact lhsA_0 _ _
      | ⟨1, _⟩ => exact (lhsA_1 _ _).trans hk)
  have er : dot_S600000x256_S256x128_S600000x128_1_0_0_1_n_n.rhsIdx (ix2 e c) ((contrEquiv1 dot_S600000x256_S256x128_S600000x128_1_0_0_1_n_n 256 rfl rfl).symm k) = ix2 k c :=
    funext fun a => Fin.ext (by
      match a with
      | ⟨0, _⟩ => exact (rhsA_0 _ _).trans hk
      | ⟨1, _⟩ => exact rhsA_1 _ _)
  rw [el, er]

/-- The left operand's row coordinate under the contraction is the result's row. -/
theorem lhsB_0 (i : S600000x128.Idx) (q : dot_S600000x128_S128x128_S600000x128_1_0_0_1_n_n.contr.Idx) :
    (dot_S600000x128_S128x128_S600000x128_1_0_0_1_n_n.lhsIdx i q 0).val = (i 0).val := by
  unfold DotDims.lhsIdx
  rw [dif_neg (show ¬(0 : Fin S600000x128.rank) ∈ dot_S600000x128_S128x128_S600000x128_1_0_0_1_n_n.lhsBatch from List.not_mem_nil),
    dif_pos (show (0 : Fin S600000x128.rank) ∈ dot_S600000x128_S128x128_S600000x128_1_0_0_1_n_n.lhsNonContracting from List.mem_singleton.mpr rfl)]
  rfl

/-- The left operand's column coordinate under the contraction is the contracted one. -/
theorem lhsB_1 (i : S600000x128.Idx) (q : dot_S600000x128_S128x128_S600000x128_1_0_0_1_n_n.contr.Idx) :
    (dot_S600000x128_S128x128_S600000x128_1_0_0_1_n_n.lhsIdx i q 1).val = (q ⟨0, Nat.one_pos⟩).val :=
  dot_S600000x128_S128x128_S600000x128_1_0_0_1_n_n.lhsIdx_val_of_single rfl i q

/-- The right operand's row coordinate under the contraction is the contracted one. -/
theorem rhsB_0 (i : S600000x128.Idx) (q : dot_S600000x128_S128x128_S600000x128_1_0_0_1_n_n.contr.Idx) :
    (dot_S600000x128_S128x128_S600000x128_1_0_0_1_n_n.rhsIdx i q 0).val = (q ⟨0, Nat.one_pos⟩).val :=
  dot_S600000x128_S128x128_S600000x128_1_0_0_1_n_n.rhsIdx_val_of_single rfl i q

/-- The right operand's column coordinate under the contraction is the result's column. -/
theorem rhsB_1 (i : S600000x128.Idx) (q : dot_S600000x128_S128x128_S600000x128_1_0_0_1_n_n.contr.Idx) :
    (dot_S600000x128_S128x128_S600000x128_1_0_0_1_n_n.rhsIdx i q 1).val = (i 1).val := by
  unfold DotDims.rhsIdx
  rw [dif_neg (show ¬(1 : Fin S128x128.rank) ∈ dot_S600000x128_S128x128_S600000x128_1_0_0_1_n_n.rhsBatch from List.not_mem_nil),
    dif_pos (show (1 : Fin S128x128.rank) ∈ dot_S600000x128_S128x128_S600000x128_1_0_0_1_n_n.rhsNonContracting from List.mem_singleton.mpr rfl)]
  rfl

/-- The matrix product at row `e` and column `c`: the sum over the 128 contracted columns of the left operand's
    row `e` against the right operand's column `c`. -/
theorem dotB_apply (lhs : FVec Ideal S600000x128 .f32) (rhs : FVec Ideal S128x128 .f32) (e : Fin 600000) (c : Fin 128) :
    Host.dotGeneral dot_S600000x128_S128x128_S600000x128_1_0_0_1_n_n none lhs rhs (ix2 e c) = ∑ k : Fin 128, lhs (ix2 e k) * rhs (ix2 k c) := by
  simp only [Host.dotGeneral]
  rw [Ideal.dotGeneral_apply, ← Equiv.sum_comp (contrEquiv1 dot_S600000x128_S128x128_S600000x128_1_0_0_1_n_n 128 rfl rfl).symm]
  refine Finset.sum_congr rfl fun k _ => ?_
  have hk := contrEquiv1_symm_val dot_S600000x128_S128x128_S600000x128_1_0_0_1_n_n 128 rfl rfl k
  have el : dot_S600000x128_S128x128_S600000x128_1_0_0_1_n_n.lhsIdx (ix2 e c) ((contrEquiv1 dot_S600000x128_S128x128_S600000x128_1_0_0_1_n_n 128 rfl rfl).symm k) = ix2 e k :=
    funext fun a => Fin.ext (by
      match a with
      | ⟨0, _⟩ => exact lhsB_0 _ _
      | ⟨1, _⟩ => exact (lhsB_1 _ _).trans hk)
  have er : dot_S600000x128_S128x128_S600000x128_1_0_0_1_n_n.rhsIdx (ix2 e c) ((contrEquiv1 dot_S600000x128_S128x128_S600000x128_1_0_0_1_n_n 128 rfl rfl).symm k) = ix2 k c :=
    funext fun a => Fin.ext (by
      match a with
      | ⟨0, _⟩ => exact (rhsB_0 _ _).trans hk
      | ⟨1, _⟩ => exact rhsB_1 _ _)
  rw [el, er]

/-! ## The chain, read at an edge row and a column -/

/-- The first matrix product of the chain: the joined features against the transposed first weight. -/
def refLin (xi xj : Vec F S600000x128 .f32) (wa : Vec F S128x256 .f32) : Vec F S600000x128 .f32 :=
  Host.dotGeneral dot_S600000x256_S256x128_S600000x128_1_0_0_1_n_n none
    (concatenate S600000x256 1 [⟨S600000x128, xi⟩, ⟨S600000x128, subf xj xi⟩] concatenates_S600000x128_S600000x128_S600000x256_d1)
    (transpose S256x128 [1, 0] wa transposes_S128x256_S256x128_1_0)

/-- The operand of the second matrix product: bias, rectifier, normalisation with the running statistics. -/
def refHidden (xi xj : Vec F S600000x128 .f32) (wa : Vec F S128x256 .f32) (ba g be rm rv : Vec F S128 .f32) :
    Vec F S600000x128 .f32 :=
  addf (mulf (subf (maximumf (addf (refLin xi xj wa)
            (broadcastInDim S600000x128 ![0, 1] bcast_S1x128_S600000x128_0_1 (broadcastInDim S1x128 ![1] bcast_S128_S1x128_1 ba)))
          (broadcastInDim S600000x128 ![] bcast_S_S600000x128 (constant S_ .f32 0x00000000#32)))
        (broadcastInDim S600000x128 ![0, 1] bcast_S1x128_S600000x128_0_1 (broadcastInDim S1x128 ![1] bcast_S128_S1x128_1 rm)))
      (broadcastInDim S600000x128 ![0, 1] bcast_S1x128_S600000x128_0_1 (broadcastInDim S1x128 ![1] bcast_S128_S1x128_1 (mulf g (Host.rsqrt (addf rv (broadcastInDim S128 ![] bcast_S_S128 (constant S_ .f32 0x3727C5AC#32))))))))
    (broadcastInDim S600000x128 ![0, 1] bcast_S1x128_S600000x128_0_1 (broadcastInDim S1x128 ![1] bcast_S128_S1x128_1 be))

/-- The chain is the second matrix product of that operand against the transposed second weight, plus its bias. -/
theorem refMlp_def (xi xj : Vec F S600000x128 .f32) (wa : Vec F S128x256 .f32) (ba g be rm rv : Vec F S128 .f32)
    (wb : Vec F S128x128 .f32) (bb : Vec F S128 .f32) :
    refMlp xi xj wa ba g be rm rv wb bb
      = addf (Host.dotGeneral dot_S600000x128_S128x128_S600000x128_1_0_0_1_n_n none (refHidden xi xj wa ba g be rm rv)
          (transpose S128x128 [1, 0] wb transposes_S128x128_S128x128_1_0))
        (broadcastInDim S600000x128 ![0, 1] bcast_S1x128_S600000x128_0_1 (broadcastInDim S1x128 ![1] bcast_S128_S1x128_1 bb)) := rfl

/-- The first matrix product at row `e` and column `k`: the 256 contracted columns split into the target features
    against the first 128 columns of the weight's row `k` and the feature differences against the last 128. -/
theorem refLin_apply (xi xj : Vec Ideal S600000x128 .f32) (wa : Vec Ideal S128x256 .f32) (e : Fin 600000) (k : Fin 128) :
    refLin (F := Ideal) xi xj wa (ix2 e k) = lin1 (E := 600000) xi xj wa e k := by
  unfold refLin
  rw [dotA_apply, sum_halves]
  unfold lin1
  refine congrArg₂ (· + ·) ?_ ?_
  · refine Finset.sum_congr rfl fun j _ => ?_
    rw [concat_left, transA_apply]
  · refine Finset.sum_congr rfl fun j _ => ?_
    rw [concat_right, transA_apply, subf_apply]

/-- The second product's operand at row `e` and column `k` is the hidden activation. -/
theorem refHidden_apply (xi xj : Vec Ideal S600000x128 .f32) (wa : Vec Ideal S128x256 .f32) (ba g be rm rv : Vec Ideal S128 .f32)
    (e : Fin 600000) (k : Fin 128) :
    refHidden (F := Ideal) xi xj wa ba g be rm rv (ix2 e k) = hidden (E := 600000) xi xj wa ba g be rm rv e k := by
  unfold refHidden
  simp only [addf_apply, subf_apply, mulf_apply, maximumf_apply, refLin_apply]
  rw [rowvec_apply, rowvec_apply, rowvec_apply, rowvec_apply, splat_apply]
  rw [mulf_apply, rsqrt_apply, addf_apply, splat128_apply]
  rfl

/-- At the ideal values the reference's chain, read at edge row `e` and column `c`, is the per-edge function. -/
theorem refMlp_apply (xi xj : Vec Ideal S600000x128 .f32) (wa : Vec Ideal S128x256 .f32) (ba g be rm rv : Vec Ideal S128 .f32)
    (wb : Vec Ideal S128x128 .f32) (bb : Vec Ideal S128 .f32) (e : Fin 600000) (c : Fin 128) :
    refMlp (F := Ideal) xi xj wa ba g be rm rv wb bb (ix2 e c) = edgeMlp (E := 600000) xi xj wa ba g be rm rv wb bb e c := by
  rw [refMlp_def, addf_apply, rowvec_apply, dotB_apply]
  unfold edgeMlp
  refine congrArg (fun t => t + bb (ix1 c)) ?_
  refine Finset.sum_congr rfl fun k _ => ?_
  rw [refHidden_apply, transB_apply]

/-- So the whole array is the message array. -/
theorem refMlp_eq (xi xj : Vec Ideal S600000x128 .f32) (wa : Vec Ideal S128x256 .f32) (ba g be rm rv : Vec Ideal S128 .f32)
    (wb : Vec Ideal S128x128 .f32) (bb : Vec Ideal S128 .f32) :
    refMlp (F := Ideal) xi xj wa ba g be rm rv wb bb = edgeArr (E := 600000) xi xj wa ba g be rm rv wb bb := by
  funext i
  obtain ⟨e, c, rfl⟩ : ∃ (e : Fin 600000) (c : Fin 128), i = ix2 e c := ⟨i 0, i 1, eq_ix2 i⟩
  exact refMlp_apply xi xj wa ba g be rm rv wb bb e c

end Cert.ReferenceIdeal.Edge

end
-- ==== Proof.RefNet.lean ====
/-
  The reference's result is the network (Net) of its arguments.

  The reference computes, stage by stage: the source and target index of every edge; the rows of the features gathered
  at both ends; its per-edge chain (RefEdge); the sum per target node; the rectifier and the division of every row by
  its bounded norm; the same gathers, chain and sum again with the second layer's parameters. Each stage is the named
  host function (Net) of the stage before it — the two programs state these operations over the same shapes and the
  same dimension records — and its per-edge chain is the per-edge function at the ideal values.
-/
import proofs.«133055_j85873576117019_2_alg».proof.Proof.Gen.ReferenceIdeal.Read
import proofs.«133055_j85873576117019_2_alg».proof.Proof.Gen.KernelIdeal
import proofs.«133055_j85873576117019_2_alg».proof.Proof.Net
import proofs.«133055_j85873576117019_2_alg».proof.Proof.RefEdge

noncomputable section

namespace Cert.ReferenceIdeal.RefNet

open Idealize.ShloMosaic Idealize.ShloMosaic.TcCoe Idealize.SL.Sem
open Cert.ReferenceIdeal Cert.ReferenceIdeal.Read Cert.ReferenceIdeal.Edge Cert.EdgeConv

section Stages

variable (x0 : Vec Ideal S50000x128 .f32) (x1 : Vec Ideal S2x600000 .i32)
  (x2 : Vec Ideal S128x256 .f32) (x3 x4 x5 x6 x7 : Vec Ideal S128 .f32) (x8 : Vec Ideal S128x128 .f32) (x9 : Vec Ideal S128 .f32)
  (x10 : Vec Ideal S128x256 .f32) (x11 x12 x13 x14 x15 : Vec Ideal S128 .f32) (x16 : Vec Ideal S128x128 .f32) (x17 : Vec Ideal S128 .f32)

/-- The first layer's gathers: the feature rows at every edge's target and source. -/
theorem rows_dst1 : val_main_v10 (F := Ideal) x0 x1 = Cert.KernelIdeal.Net.rowsAt x0 (Cert.KernelIdeal.Net.dstOf x1) := rfl
theorem rows_src1 : val_main_v17 (F := Ideal) x0 x1 = Cert.KernelIdeal.Net.rowsAt x0 (Cert.KernelIdeal.Net.srcOf x1) := rfl
/-- The first layer's per-edge chain, of those rows. -/
theorem mlp1 : val_main_v43 (F := Ideal) x0 x1 x2 x3 x4 x5 x6 x7 x8 x9
    = refMlp (val_main_v10 (F := Ideal) x0 x1) (val_main_v17 (F := Ideal) x0 x1) x2 x3 x4 x5 x6 x7 x8 x9 := rfl
/-- Its sum per target node. -/
theorem sum1 : val_main_v46 (F := Ideal) x0 x1 x2 x3 x4 x5 x6 x7 x8 x9 = Cert.KernelIdeal.Net.segSum (Cert.KernelIdeal.Net.dstOf x1) (val_main_v43 (F := Ideal) x0 x1 x2 x3 x4 x5 x6 x7 x8 x9) := rfl
/-- The rectifier and the division of every row by its bounded norm. -/
theorem unit1 : val_main_v52 (F := Ideal) x0 x1 x2 x3 x4 x5 x6 x7 x8 x9 = Cert.KernelIdeal.Net.unitRows (val_main_v46 (F := Ideal) x0 x1 x2 x3 x4 x5 x6 x7 x8 x9) := rfl
/-- The second layer's gathers, of the normalised features. -/
theorem rows_dst2 : val_main_v59 (F := Ideal) x0 x1 x2 x3 x4 x5 x6 x7 x8 x9 = Cert.KernelIdeal.Net.rowsAt (val_main_v52 (F := Ideal) x0 x1 x2 x3 x4 x5 x6 x7 x8 x9) (Cert.KernelIdeal.Net.dstOf x1) := rfl
theorem rows_src2 : val_main_v66 (F := Ideal) x0 x1 x2 x3 x4 x5 x6 x7 x8 x9 = Cert.KernelIdeal.Net.rowsAt (val_main_v52 (F := Ideal) x0 x1 x2 x3 x4 x5 x6 x7 x8 x9) (Cert.KernelIdeal.Net.srcOf x1) := rfl
/-- The second layer's per-edge chain, with its own parameters. -/
theorem mlp2 : val_main_v92 (F := Ideal) x0 x1 x2 x3 x4 x5 x6 x7 x8 x9 x10 x11 x12 x13 x14 x15 x16 x17
    = refMlp (val_main_v59 (F := Ideal) x0 x1 x2 x3 x4 x5 x6 x7 x8 x9) (val_main_v66 (F := Ideal) x0 x1 x2 x3 x4 x5 x6 x7 x8 x9) x10 x11 x12 x13 x14 x15 x16 x17 := rfl
/-- The result: its sum per target node. -/
theorem sum2 : val_main_v95 (F := Ideal) x0 x1 x2 x3 x4 x5 x6 x7 x8 x9 x10 x11 x12 x13 x14 x15 x16 x17 = Cert.KernelIdeal.Net.segSum (Cert.KernelIdeal.Net.dstOf x1) (val_main_v92 (F := Ideal) x0 x1 x2 x3 x4 x5 x6 x7 x8 x9 x10 x11 x12 x13 x14 x15 x16 x17) := rfl

/-- The reference's last stage is the network of the arguments. -/
theorem val95_eq_net : val_main_v95 (F := Ideal) x0 x1 x2 x3 x4 x5 x6 x7 x8 x9 x10 x11 x12 x13 x14 x15 x16 x17 = Cert.KernelIdeal.Net.net x0 x1 x2 x3 x4 x5 x6 x7 x8 x9 x10 x11 x12 x13 x14 x15 x16 x17 := by
  rw [sum2, mlp2, refMlp_eq, rows_dst2, rows_src2, unit1, sum1, mlp1, refMlp_eq, rows_dst1, rows_src1]
  rfl

end Stages

/-- The term the reference's run ends at is the network of the launch contents of its arguments. -/
theorem ref_result (m : (ℓ : Loc nD τ sig) → Buf (Elt Ideal) ℓ) (c : Dev nD) :
    Cert.ReferenceIdeal.Value.res_main_v95 (F := Ideal) m c
      = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (val_main_v95_eq m c).trans (val95_eq_net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))

end Cert.ReferenceIdeal.RefNet

end
-- ==== Proof.lean ====
/-
  The certificate of a two-layer EdgeConv network: a kernel for the per-edge function, launched once per layer among
  host gathers and scatter-adds, against the plain reference.

  Both programs compute, per layer, for every edge e from node src e to node dst e, the message
      MLP (concat (x[dst e], x[src e] - x[dst e]))
  — a linear layer 256 → 128, the rectifier, the batch normalisation with the running statistics, a linear layer
  128 → 128 — and add the messages into their target nodes; between the layers the node features are rectified and
  each row divided by its norm. The reference multiplies the concatenated 256 features by the transposed weight in one
  product. The kernel works on 100 blocks of 6000 edges; on each it multiplies the target features by the first 128
  columns of the weight and the difference by the last 128, each into a zero accumulator, and adds the two. At the
  ideal values the one sum over 256 columns is the sum over its two halves, changes of float format are the identity,
  and the two programs' gathers, scatter-adds and normalisation are the same operations, so the results are equal
  element by element. No finiteness of the inputs is used.

  The modules: EdgeSpec (the per-edge function, index by index), KernelBody (one grid point's stored block is that
  function of its loaded blocks), KernelBlocks (each region's output array is that function of the arrays it is
  entered with), KernelRun (the kernel program's run with its result named), Net and KernelFold (the result read
  through the host operations), RefEdge and RefNet (the reference's run read the same way).
-/
import proofs.«133055_j85873576117019_2_alg».proof.Defs
import proofs.«133055_j85873576117019_2_alg».proof.Proof.Gen.Kernel
import proofs.«133055_j85873576117019_2_alg».proof.Proof.Gen.Kernel.Skeleton
import proofs.«133055_j85873576117019_2_alg».proof.Proof.Gen.Kernel.Launch
import proofs.«133055_j85873576117019_2_alg».proof.Proof.Gen.Kernel.Points
import proofs.«133055_j85873576117019_2_alg».proof.Proof.Gen.Kernel.Frame
import proofs.«133055_j85873576117019_2_alg».proof.Proof.Gen.KernelIdeal
import proofs.«133055_j85873576117019_2_alg».proof.Proof.Gen.KernelIdeal.Skeleton
import proofs.«133055_j85873576117019_2_alg».proof.Proof.Gen.KernelIdeal.Launch
import proofs.«133055_j85873576117019_2_alg».proof.Proof.Gen.KernelIdeal.Points
import proofs.«133055_j85873576117019_2_alg».proof.Proof.Gen.KernelIdeal.Frame
import proofs.«133055_j85873576117019_2_alg».proof.Proof.Gen.ReferenceIdeal
import proofs.«133055_j85873576117019_2_alg».proof.Proof.Gen.Pre_finite_inputs
import proofs.«133055_j85873576117019_2_alg».proof.Proof.Gen.ReferenceIdeal.Read
import proofs.«133055_j85873576117019_2_alg».proof.Proof.KernelRun
import proofs.«133055_j85873576117019_2_alg».proof.Proof.KernelFold
import proofs.«133055_j85873576117019_2_alg».proof.Proof.RefNet
import Idealize.ShloMosaic.Adequacy
import Idealize.ShloMosaic.Init

noncomputable section

namespace Cert.Proof

open Idealize.ShloMosaic Idealize.SL.Sem Cert.Kernel

/-- The kernel program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of the argument arrays in their result. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Fold.result_eq m ρ c), (h c).2⟩) (Cert.KernelIdeal.Hand.run_result m ρ)
  · refine (θ_run Cert.ReferenceIdeal.defs _ _).mono
      (fun r h c => ⟨(h c).1.trans ((Cert.ReferenceIdeal.RefNet.ref_result m' c).trans ?_), (h c).2⟩)
      (Cert.ReferenceIdeal.Value.run (F := Ideal) m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
